-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000 : Shape := ⟨1, ![20000000]⟩
abbrev S262144 : Shape := ⟨1, ![262144]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S20000000 .f32) (main_arg1 : FVec F S20000000 .f32) (main_arg2 : FVec F S262144 .f32) : IVec S_ 1 :=
  let main_v0 : FVec F S20000000 .f32 := Host.absf main_arg0
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  let main_v4 : FVec F S20000000 .f32 := Host.absf main_arg1
  let main_cst_0 : FVec F S_ .f32 := constant S_ .f32 0x7F800000#32
  let main_v5 : FVec F S20000000 .f32 := broadcastInDim S20000000 ![] bcast_S_S20000000 main_cst_0
  let main_v6 : IVec S20000000 1 := cmpf .olt main_v4 main_v5
  let main_c_1 : IVec S_ 1 := constantI S_ 1 1#1
  let main_v7 : IVec S_ 1 := (fun x v => Host.reduce IntOp.andi x v reducesTo_S20000000_S_d0 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S20000000 : Shape := ⟨1, ![20000000]⟩
abbrev S262144 : Shape := ⟨1, ![262144]⟩
abbrev S_ : Shape := ⟨0, ![]⟩
abbrev S20000768 : Shape := ⟨1, ![20000768]⟩
abbrev S156256x128 : Shape := ⟨2, ![156256, 128]⟩
abbrev S512x512 : Shape := ⟨2, ![512, 512]⟩
abbrev S16x128 : Shape := ⟨2, ![16, 128]⟩
abbrev S16x128x512 : Shape := ⟨3, ![16, 128, 512]⟩
abbrev S16x128x1 : Shape := ⟨3, ![16, 128, 1]⟩
abbrev S2048x512 : Shape := ⟨2, ![2048, 512]⟩

abbrev nBuf : Space → Nat
  | .hbm => 16
  | .vmem => 7
  | .smem => 0
  | _ => 0

abbrev bufTy : (tb : Table) → Fin (tcTables nBuf tb) → BufTy
  | .hbm, ⟨0, _⟩ => ⟨S20000000, .f32⟩
  | .hbm, ⟨1, _⟩ => ⟨S20000000, .f32⟩
  | .hbm, ⟨2, _⟩ => ⟨S262144, .f32⟩
  | .hbm, ⟨3, _⟩ => ⟨S_, .i32⟩
  | .hbm, ⟨4, _⟩ => ⟨S_, .f32⟩
  | .hbm, ⟨5, _⟩ => ⟨S20000768, .f32⟩
  | .hbm, ⟨6, _⟩ => ⟨S_, .i32⟩
  | .hbm, ⟨7, _⟩ => ⟨S_, .f32⟩
  | .hbm, ⟨8, _⟩ => ⟨S20000768, .f32⟩
  | .hbm, ⟨9, _⟩ => ⟨S156256x128, .f32⟩
  | .hbm, ⟨10, _⟩ => ⟨S156256x128, .f32⟩
  | .hbm, ⟨11, _⟩ => ⟨S512x512, .f32⟩
  | .hbm, ⟨12, _⟩ => ⟨S512x512, .bf16⟩
  | .hbm, ⟨13, _⟩ => ⟨S156256x128, .f32⟩
  | .hbm, ⟨14, _⟩ => ⟨S20000768, .f32⟩
  | .hbm, ⟨15, _⟩ => ⟨S20000000, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S512x512, .bf16⟩
  | .local _ .vmem, ⟨5, _⟩ => ⟨S16x128, .f32⟩
  | .local _ .vmem, ⟨6, _⟩ => ⟨S16x128, .f32⟩
  | _, _ => ⟨S20000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9766], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S20000000_S20000768_07680 : S20000000.Pads (![0] : Fin 1 → Nat) ![768] ![0] S20000768
  h_S_ : 0 < S_.numel
  shapeCasts_S20000768_S156256x128 : S20000768.ShapeCasts S156256x128
  shapeCasts_S262144_S512x512 : S262144.ShapeCasts S512x512
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  iota_S16x128x512_d2_w32 : S16x128x512.Iotas .tc 32 [2]
  shapeCasts_S16x128_S16x128x1 : S16x128.ShapeCasts S16x128x1
  broadcasts_S16x128x1_S16x128x512 : S16x128x1.Broadcasts S16x128x512
  shapeCasts_S16x128x1_S16x128x1 : S16x128x1.ShapeCasts S16x128x1
  shapeCasts_S16x128x512_S2048x512 : S16x128x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S16x128x512 : S2048x512.ShapeCasts S16x128x512
  reduces_S16x128x512_S16x128 : S16x128x512.Reduces [2] S16x128
  shapeCasts_S156256x128_S20000768 : S156256x128.ShapeCasts S20000768
  slices_S20000768_S20000000_0 : S20000768.Slices ![0] S20000000
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S156256x128.size a
  hwx0_0 : ∀ i : grid0.Coords, EltTy.bits .f32 = 32 ∨ (Rect.block (s := S156256x128) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S156256x128.size a
  hwx0_1 : ∀ i : grid0.Coords, EltTy.bits .f32 = 32 ∨ (Rect.block (s := S156256x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S156256x128.size a
  hwx0_3 : ∀ i : grid0.Coords, EltTy.bits .f32 = 32 ∨ (Rect.block (s := S156256x128) S16x128.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v2) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000000 : Shape := ⟨1, ![20000000]⟩
abbrev S262144 : Shape := ⟨1, ![262144]⟩
abbrev S_ : Shape := ⟨0, ![]⟩
abbrev S20000000x1 : Shape := ⟨2, ![20000000, 1]⟩

abbrev nBuf : Space → Nat
  | .hbm => 147
  | .vmem => 0
  | .smem => 0
  | _ => 0

abbrev hbmTy0_0 (i : Nat) : BufTy := match i % 128 with
  | 0 => ⟨S20000000, .f32⟩
  | 1 => ⟨S20000000, .f32⟩
  | 2 => ⟨S262144, .f32⟩
  | 3 => ⟨S_, .f32⟩
  | 4 => ⟨S20000000, .f32⟩
  | 5 => ⟨S20000000, .f32⟩
  | 6 => ⟨S_, .f32⟩
  | 7 => ⟨S20000000, .f32⟩
  | 8 => ⟨S20000000, .f32⟩
  | 9 => ⟨S20000000, .f32⟩
  | 10 => ⟨S_, .i32⟩
  | 11 => ⟨S_, .i32⟩
  | 12 => ⟨S_, .f32⟩
  | 13 => ⟨S20000000, .f32⟩
  | 14 => ⟨S20000000, .f32⟩
  | 15 => ⟨S_, .f32⟩
  | 16 => ⟨S20000000, .f32⟩
  | 17 => ⟨S20000000, .f32⟩
  | 18 => ⟨S20000000, .i32⟩
  | 19 => ⟨S_, .f32⟩
  | 20 => ⟨S20000000, .f32⟩
  | 21 => ⟨S20000000, .f32⟩
  | 22 => ⟨S_, .f32⟩
  | 23 => ⟨S20000000, .f32⟩
  | 24 => ⟨S20000000, .f32⟩
  | 25 => ⟨S20000000, .f32⟩
  | 26 => ⟨S_, .i32⟩
  | 27 => ⟨S_, .i32⟩
  | 28 => ⟨S_, .f32⟩
  | 29 => ⟨S20000000, .f32⟩
  | 30 => ⟨S20000000, .f32⟩
  | 31 => ⟨S_, .f32⟩
  | 32 => ⟨S20000000, .f32⟩
  | 33 => ⟨S20000000, .f32⟩
  | 34 => ⟨S20000000, .i32⟩
  | 35 => ⟨S_, .i32⟩
  | 36 => ⟨S20000000, .i32⟩
  | 37 => ⟨S20000000, .i32⟩
  | 38 => ⟨S_, .i32⟩
  | 39 => ⟨S20000000, .i32⟩
  | 40 => ⟨S20000000, .i32⟩
  | 41 => ⟨S20000000, .f32⟩
  | 42 => ⟨S_, .f32⟩
  | 43 => ⟨S20000000, .f32⟩
  | 44 => ⟨S20000000, .f32⟩
  | 45 => ⟨S_, .f32⟩
  | 46 => ⟨S20000000, .f32⟩
  | 47 => ⟨S20000000, .f32⟩
  | 48 => ⟨S20000000, .f32⟩
  | 49 => ⟨S_, .f32⟩
  | 50 => ⟨S20000000, .f32⟩
  | 51 => ⟨S20000000, .f32⟩
  | 52 => ⟨S_, .f32⟩
  | 53 => ⟨S20000000, .f32⟩
  | 54 => ⟨S20000000, .f32⟩
  | 55 => ⟨S20000000, .f32⟩
  | 56 => ⟨S_, .f32⟩
  | 57 => ⟨S20000000, .f32⟩
  | 58 => ⟨S20000000, .f32⟩
  | 59 => ⟨S_, .f32⟩
  | 60 => ⟨S20000000, .f32⟩
  | 61 => ⟨S20000000, .f32⟩
  | 62 => ⟨S20000000, .f32⟩
  | 63 => ⟨S_, .f32⟩
  | 64 => ⟨S20000000, .f32⟩
  | 65 => ⟨S20000000, .f32⟩
  | 66 => ⟨S_, .f32⟩
  | 67 => ⟨S20000000, .f32⟩
  | 68 => ⟨S20000000, .f32⟩
  | 69 => ⟨S_, .i32⟩
  | 70 => ⟨S20000000, .i32⟩
  | 71 => ⟨S20000000, .i32⟩
  | 72 => ⟨S20000000, .i32⟩
  | 73 => ⟨S_, .i32⟩
  | 74 => ⟨S20000000, .i32⟩
  | 75 => ⟨S20000000, .i1⟩
  | 76 => ⟨S_, .i32⟩
  | 77 => ⟨S20000000, .i32⟩
  | 78 => ⟨S20000000, .i32⟩
  | 79 => ⟨S20000000, .i32⟩
  | 80 => ⟨S20000000x1, .i32⟩
  | 81 => ⟨S20000000, .f32⟩
  | 82 => ⟨S_, .i32⟩
  | 83 => ⟨S20000000, .i32⟩
  | 84 => ⟨S20000000, .i32⟩
  | 85 => ⟨S20000000, .i32⟩
  | 86 => ⟨S_, .i32⟩
  | 87 => ⟨S20000000, .i32⟩
  | 88 => ⟨S20000000, .i1⟩
  | 89 => ⟨S_, .i32⟩
  | 90 => ⟨S20000000, .i32⟩
  | 91 => ⟨S20000000, .i32⟩
  | 92 => ⟨S20000000, .i32⟩
  | 93 => ⟨S20000000x1, .i32⟩
  | 94 => ⟨S20000000, .f32⟩
  | 95 => ⟨S_, .i32⟩
  | 96 => ⟨S20000000, .i32⟩
  | 97 => ⟨S20000000, .i32⟩
  | 98 => ⟨S20000000, .i32⟩
  | 99 => ⟨S_, .i32⟩
  | 100 => ⟨S20000000, .i32⟩
  | 101 => ⟨S20000000, .i1⟩
  | 102 => ⟨S_, .i32⟩
  | 103 => ⟨S20000000, .i32⟩
  | 104 => ⟨S20000000, .i32⟩
  | 105 => ⟨S20000000, .i32⟩
  | 106 => ⟨S20000000x1, .i32⟩
  | 107 => ⟨S20000000, .f32⟩
  | 108 => ⟨S_, .i32⟩
  | 109 => ⟨S20000000, .i32⟩
  | 110 => ⟨S20000000, .i32⟩
  | 111 => ⟨S20000000, .i32⟩
  | 112 => ⟨S_, .i32⟩
  | 113 => ⟨S20000000, .i32⟩
  | 114 => ⟨S20000000, .i1⟩
  | 115 => ⟨S_, .i32⟩
  | 116 => ⟨S20000000, .i32⟩
  | 117 => ⟨S20000000, .i32⟩
  | 118 => ⟨S20000000, .i32⟩
  | 119 => ⟨S20000000x1, .i32⟩
  | 120 => ⟨S20000000, .f32⟩
  | 121 => ⟨S20000000, .f32⟩
  | 122 => ⟨S20000000, .f32⟩
  | 123 => ⟨S20000000, .f32⟩
  | 124 => ⟨S_, .f32⟩
  | 125 => ⟨S20000000, .f32⟩
  | 126 => ⟨S20000000, .f32⟩
  | 127 => ⟨S20000000, .f32⟩
  | _ => ⟨S20000000, .f32⟩

abbrev hbmTy0_1 (i : Nat) : BufTy := match i % 128 with
  | 0 => ⟨S20000000, .f32⟩
  | 1 => ⟨S20000000, .f32⟩
  | 2 => ⟨S20000000, .f32⟩
  | 3 => ⟨S20000000, .f32⟩
  | 4 => ⟨S20000000, .f32⟩
  | 5 => ⟨S20000000, .f32⟩
  | 6 => ⟨S20000000, .f32⟩
  | 7 => ⟨S20000000, .f32⟩
  | 8 => ⟨S20000000, .f32⟩
  | 9 => ⟨S20000000, .f32⟩
  | 10 => ⟨S20000000, .f32⟩
  | 11 => ⟨S20000000, .f32⟩
  | 12 => ⟨S20000000, .f32⟩
  | 13 => ⟨S20000000, .f32⟩
  | 14 => ⟨S20000000, .f32⟩
  | 15 => ⟨S20000000, .f32⟩
  | 16 => ⟨S20000000, .f32⟩
  | 17 => ⟨S20000000, .f32⟩
  | 18 => ⟨S20000000, .f32⟩
  | _ => ⟨S20000000, .f32⟩

abbrev hbmTy (i : Nat) : BufTy := match i / 128 with
  | 0 => hbmTy0_0 i
  | 1 => hbmTy0_1 i
  | _ => ⟨S20000000, .f32⟩

abbrev bufTy : (tb : Table) → Fin (tcTables nBuf tb) → BufTy
  | .hbm, ⟨i, _⟩ => hbmTy i
  | _, _ => ⟨S20000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_c_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_c_6 : Ref sig .tc := ⟨.hbm, 35, rfl⟩
abbrev main_v14 : Ref sig .tc := ⟨.hbm, 36, rfl⟩
abbrev main_v15 : Ref sig .tc := ⟨.hbm, 37, rfl⟩
abbrev main_c_7 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_8 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_10 : Ref sig .tc := ⟨.hbm, 49, rfl⟩
abbrev main_v24 : Ref sig .tc := ⟨.hbm, 50, rfl⟩
abbrev main_v25 : Ref sig .tc := ⟨.hbm, 51, rfl⟩
abbrev main_cst_11 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_12 : Ref sig .tc := ⟨.hbm, 56, rfl⟩
abbrev main_v29 : Ref sig .tc := ⟨.hbm, 57, rfl⟩
abbrev main_v30 : Ref sig .tc := ⟨.hbm, 58, rfl⟩
abbrev main_cst_13 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_14 : Ref sig .tc := ⟨.hbm, 63, rfl⟩
abbrev main_v34 : Ref sig .tc := ⟨.hbm, 64, rfl⟩
abbrev main_v35 : Ref sig .tc := ⟨.hbm, 65, rfl⟩
abbrev main_cst_15 : Ref sig .tc := ⟨.hbm, 66, rfl⟩
abbrev main_v36 : Ref sig .tc := ⟨.hbm, 67, rfl⟩
abbrev main_v37 : Ref sig .tc := ⟨.hbm, 68, rfl⟩
abbrev main_c_16 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_17 : Ref sig .tc := ⟨.hbm, 73, rfl⟩
abbrev main_v41 : Ref sig .tc := ⟨.hbm, 74, rfl⟩
abbrev main_v42 : Ref sig .tc := ⟨.hbm, 75, rfl⟩
abbrev main_c_18 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_19 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_20 : Ref sig .tc := ⟨.hbm, 86, rfl⟩
abbrev main_v51 : Ref sig .tc := ⟨.hbm, 87, rfl⟩
abbrev main_v52 : Ref sig .tc := ⟨.hbm, 88, rfl⟩
abbrev main_c_21 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_22 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_23 : Ref sig .tc := ⟨.hbm, 99, rfl⟩
abbrev main_v61 : Ref sig .tc := ⟨.hbm, 100, rfl⟩
abbrev main_v62 : Ref sig .tc := ⟨.hbm, 101, rfl⟩
abbrev main_c_24 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_25 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_26 : Ref sig .tc := ⟨.hbm, 112, rfl⟩
abbrev main_v71 : Ref sig .tc := ⟨.hbm, 113, rfl⟩
abbrev main_v72 : Ref sig .tc := ⟨.hbm, 114, rfl⟩
abbrev main_c_27 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_28 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)
  bcast_S20000000_S20000000x1_0 : S20000000.BroadcastsInDim S20000000x1 (![0] : Fin 1 → Fin S20000000x1.rank)
  gather_S262144_S20000000x1_S20000000_n_0_n_n_0_1_1_wf : GatherDims.WF S262144 S20000000x1 S20000000 [] [0] [] [0] [] 1 ![1]

variable [Facts₀]

def gather_S262144_S20000000x1_S20000000_n_0_n_n_0_1_1 : GatherDims S262144 S20000000x1 S20000000 where
  offsetDims := []
  collapsedSliceDims := [0]
  operandBatchingDims := []
  startIndicesBatchingDims := []
  startIndexMap := [0]
  indexVectorDim := 1
  sliceSizes := ![1]
  wf := gather_S262144_S20000000x1_S20000000_n_0_n_n_0_1_1_wf

class Facts : Prop extends Facts₀ where

variable [Facts]
-- ==== Proof.Finite.lean ====
/-
  Finiteness from the precondition.

  The precondition says that three conjunctions "every entry has absolute value below +∞", one per input array,
  are all true. An extended real whose absolute value max x (-x) is below +∞ is neither infinity, so it is a
  real number; hence each input array is the coercion of an array of reals.
-/
import proofs.«131683_j25202868092980_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem ofBits_inf : Ideal.ofBits .f32 0x7F800000#32 = (⊤ : EReal) := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

variable [Cert.Pre_finite_inputs.Facts]

/-- Under the precondition the three input arrays are arrays of reals. -/
theorem reals_of_pre (a0 a1 : Cert.Pre_finite_inputs.S20000000.Idx → EReal)
    (a2 : Cert.Pre_finite_inputs.S262144.Idx → EReal)
    (h : Cert.Pre_finite_inputs.fn (F := Ideal) a0 a1 a2 = (fun _ => 1#1)) :
    ∃ (R Z : Cert.Pre_finite_inputs.S20000000.Idx → ℝ) (Tt : Cert.Pre_finite_inputs.S262144.Idx → ℝ),
      a0 = (fun i => ((R i : ℝ) : EReal)) ∧ a1 = (fun i => ((Z i : ℝ) : EReal))
        ∧ a2 = (fun i => ((Tt i : ℝ) : EReal)) := by
  have h0 := congrFun h ix0
  dsimp only [Cert.Pre_finite_inputs.fn] at h0
  obtain ⟨h01, hT⟩ := IntOp.andi_eq_one.1 h0
  obtain ⟨hR, hZ⟩ := IntOp.andi_eq_one.1 h01
  have eR : ∀ i, ∃ r : ℝ, a0 i = (r : EReal) := fun i =>
    real_of_abs_lt_inf (a0 i) (Host.reduce_andi_all _ _ _ _ _ hR i)
  have eZ : ∀ i, ∃ r : ℝ, a1 i = (r : EReal) := fun i =>
    real_of_abs_lt_inf (a1 i) (Host.reduce_andi_all _ _ _ _ _ hZ i)
  have eT : ∀ i, ∃ r : ℝ, a2 i = (r : EReal) := fun i =>
    real_of_abs_lt_inf (a2 i) (Host.reduce_andi_all _ _ _ _ _ hT i)
  choose R hR' using eR
  choose Z hZ' using eZ
  choose Tt hT' using eT
  exact ⟨R, Z, Tt, funext hR', funext hZ', funext hT'⟩

end Cert.Finite

end
-- ==== Proof.Bilinear.lean ====
/-
  Bilinear interpolation in a 512 × 512 table at a real query point (r, z), on the unit grid.

  The cell of a coordinate x is its floor clamped to 0 … 510, so that the cell's upper grid line, cell + 1, is
  still a grid line of the table.  With n = cell r and k = cell z the interpolated value is

      (k + 1 - z) · ((n + 1 - r) · T n k + (r - n) · T (n+1) k) + (z - k) · ((n + 1 - r) · T n (k+1) + (r - n) · T (n+1) (k+1)).

  Two other spellings of the same number are proved equal to it: the two-hot form (a row selector with the
  weights n + 1 - r and r - n at positions n and n + 1, contracted with the table, then a column selector with
  the weights k + 1 - z and z - k at k and k + 1), and the four-corner form divided by the cell's area
  (x2 - x1) · (y2 - y1) = 1.
-/
import Mathlib.Tactic

noncomputable section

open scoped BigOperators

namespace Cert.Bilinear

/-- The floor of x clamped to 0 … 510, as an integer. -/
def cellZ (x : ℝ) : ℤ := min 510 (max 0 ⌊x⌋)

theorem cellZ_nonneg (x : ℝ) : 0 ≤ cellZ x := le_min (by norm_num) (le_max_left _ _)
theorem cellZ_le (x : ℝ) : cellZ x ≤ 510 := min_le_left _ _

/-- The cell of a coordinate: its floor clamped to 0 … 510. -/
def cell (x : ℝ) : Fin 511 := ⟨(cellZ x).toNat, by have := cellZ_nonneg x; have := cellZ_le x; omega⟩

theorem cell_val_cast (x : ℝ) : ((cell x).val : ℤ) = cellZ x := Int.toNat_of_nonneg (cellZ_nonneg x)

theorem cell_val_real (x : ℝ) : ((cell x).val : ℝ) = ((cellZ x : ℤ) : ℝ) := by
  rw [← cell_val_cast x]; norm_cast

/-- Row i, column j of the table in the flat row-major order. -/
def flat (i j : Fin 512) : Fin 262144 := ⟨i.val * 512 + j.val, by have := i.isLt; have := j.isLt; omega⟩

/-- The weight of grid line i for the coordinate x: cell + 1 - x at the cell's lower line, x - cell at its upper
    line, zero elsewhere. -/
def wgt (x : ℝ) (i : Fin 512) : ℝ :=
  (if i = (cell x).castSucc then ((cell x).val : ℝ) + 1 - x else 0) + (if i = (cell x).succ then x - ((cell x).val : ℝ) else 0)

/-- The interpolated value. -/
def bil (r z : ℝ) (T : Fin 512 → Fin 512 → ℝ) : ℝ :=
  (((cell z).val : ℝ) + 1 - z) * ((((cell r).val : ℝ) + 1 - r) * T (cell r).castSucc (cell z).castSucc
      + (r - ((cell r).val : ℝ)) * T (cell r).succ (cell z).castSucc)
    + (z - ((cell z).val : ℝ)) * ((((cell r).val : ℝ) + 1 - r) * T (cell r).castSucc (cell z).succ
      + (r - ((cell r).val : ℝ)) * T (cell r).succ (cell z).succ)

/-- A sum against a two-hot selector keeps the two selected terms. -/
theorem twoHot_sum (n : Fin 511) (a b : ℝ) (f : Fin 512 → ℝ) :
    ∑ i : Fin 512, ((if i = n.castSucc then a else 0) + (if i = n.succ then b else 0)) * f i
      = a * f n.castSucc + b * f n.succ := by
  simp only [add_mul, Finset.sum_add_distrib, ite_mul, zero_mul, Finset.sum_ite_eq', Finset.mem_univ, if_true]

/-- The two-hot form: select and mix two rows by a contraction with the table, then select and mix two columns. -/
theorem bil_eq_sums (r z : ℝ) (T : Fin 512 → Fin 512 → ℝ) :
    ∑ j : Fin 512, (∑ i : Fin 512, wgt r i * T i j) * wgt z j = bil r z T := by
  have h1 : ∀ j : Fin 512, ∑ i : Fin 512, wgt r i * T i j
      = (((cell r).val : ℝ) + 1 - r) * T (cell r).castSucc j + (r - ((cell r).val : ℝ)) * T (cell r).succ j :=
    fun j => twoHot_sum (cell r) _ _ (fun i => T i j)
  simp only [h1]
  have h2 := twoHot_sum (cell z) (((cell z).val : ℝ) + 1 - z) (z - ((cell z).val : ℝ))
    (fun j => (((cell r).val : ℝ) + 1 - r) * T (cell r).castSucc j + (r - ((cell r).val : ℝ)) * T (cell r).succ j)
  simp only [wgt, mul_comm _ ((if _ = (cell z).castSucc then _ else (0 : ℝ)) + _)]
  rw [h2, bil]

/-- The four-corner form: the corners weighted by the opposite sub-rectangles, over the cell's area, which is 1. -/
theorem bil_eq_corners (r z : ℝ) (T : Fin 512 → Fin 512 → ℝ) (x1 x2 y1 y2 : ℝ)
    (hx1 : x1 = ((cell r).val : ℝ)) (hx2 : x2 = ((cell r).val : ℝ) + 1)
    (hy1 : y1 = ((cell z).val : ℝ)) (hy2 : y2 = ((cell z).val : ℝ) + 1) :
    1 / ((x2 - x1) * (y2 - y1))
        * (T (cell r).castSucc (cell z).castSucc * (x2 - r) * (y2 - z)
          + T (cell r).succ (cell z).castSucc * (r - x1) * (y2 - z)
          + T (cell r).castSucc (cell z).succ * (x2 - r) * (z - y1)
          + T (cell r).succ (cell z).succ * (r - x1) * (z - y1))
      = bil r z T := by
  subst hx1 hx2 hy1 hy2
  have e1 : (((cell r).val : ℝ) + 1 - ((cell r).val : ℝ)) = 1 := by ring
  have e2 : (((cell z).val : ℝ) + 1 - ((cell z).val : ℝ)) = 1 := by ring
  rw [e1, e2, bil]
  ring

end Cert.Bilinear

end
-- ==== Proof.Cells.lean ====
/-
  The cell of a coordinate, as the two programs compute it over the exact extended reals and in 32-bit integers:
  the clamp of the floor of a real is the real number of its cell, converting that to a signed 32-bit integer gives the
  cell's number as a bit vector, and small numbers survive the round trip through 32-bit words.
-/
import Idealize.ShloMosaic.PureOps.Ideal
import proofs.«131683_j25202868092980_1_alg».proof.Proof.Bilinear

noncomputable section

namespace Cert.Cells

open Idealize.ShloMosaic Cert.Bilinear

/-- The word of 510.0. -/
theorem ofBits_510 : Ideal.ofBits .f32 0x43FF0000#32 = ((510 : ℝ) : EReal) := by
  simp [Ideal.ofBits, Ideal.ieee, -EReal.coe_mul]; norm_num

/-- The floor of a real, clamped between 0 and 510 on the extended reals, is the number of its cell. -/
theorem clip_coe (x : ℝ) :
    min ((510 : ℝ) : EReal) (max ((0 : ℝ) : EReal) (Ideal.liftRound Int.floor (x : EReal)))
      = (((cell x).val : ℝ) : EReal) := by
  rw [Ideal.liftRound_coe, cell_val_real, cellZ, ← EReal.coe_strictMono.monotone.map_max,
    ← EReal.coe_strictMono.monotone.map_min]
  push_cast
  rfl

/-- The cell's number converted to a signed 32-bit integer. -/
theorem fptosi_cell (x : ℝ) : Ideal.fptosi 32 (((cell x).val : ℝ) : EReal) = BitVec.ofNat 32 (cell x).val := by
  have hlt := (cell x).isLt
  rw [Ideal.fptosi, Ideal.toIntClamped_coe, if_pos (Nat.cast_nonneg _), Int.floor_natCast,
    min_eq_right (by norm_num; omega), max_eq_right (by norm_num)]
  exact BitVec.ofInt_natCast _ _

/-- A number below 2^31 read back signed from its 32-bit word. -/
theorem toInt_ofNat_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- Numbers below 2^32 have distinct 32-bit words. -/
theorem ofNat_inj_small (a b : ℕ) (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

end Cert.Cells

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibRows.lean ====
/-
  Whole rows of a matrix gathered and scatter-added, for any sizes.  A gather with one start index per result row
  (operand [N, C], start indices [E, 1], result [E, C]) reads, at (e, c), the operand at the row the e-th index names
  (read signed, clamped into [0, N - 1]) and column c.  A scatter-add with one index per update row adds, at (r, c),
  the column-c entries of exactly the update rows whose index, read signed, is r; a row whose index is outside the
  operand is dropped.  Summing gathered rows commutes with a matrix product on the right, for finite entries:
  the scatter-add into zeros of the gathered rows of X · W is (the scatter-add into zeros of the gathered rows of X) · W.
-/
import Idealize.ShloMosaic.Lib.ValueIdx
import Idealize.ShloMosaic.PureOps.Ideal
import Idealize.ShloMosaic.PureOps.Ideal.Laws
import proofs.«131683_j25202868092980_1_alg».proof.Proof.LibMatOps

noncomputable section

open scoped BigOperators

namespace Cert.LibRows

open Idealize.ShloMosaic Idealize.ShloMosaic.ValueIdx

variable {N C K E w : ℕ}

/-! ## Gathering whole rows -/

/-- The dimension numbers of a gather of whole rows: operand `[N, C]`, start indices `[E, 1]` (one row number per
    result row), result `[E, C]`; axis 0 of the operand is collapsed and indexed, axis 1 is taken whole. -/
abbrev gatherRowsDims (N C E : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, read signed, clamped into `[0, N - 1]`. -/
def rowAt (hN : 0 < N) (idx : IVec ⟨2, ![E, 1]⟩ w) (e : Fin E) : Fin N :=
  ⟨min (idx (ix2 e (0 : Fin 1))).toInt.toNat (N - 1), by omega⟩

/-- The gather read at `(e, c)`: the operand at row `rowAt e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N C E wf) x idx (ix2 e c) = x (ix2 (rowAt hN idx e) c) := by
  unfold Host.gather
  congr 1
  have h0 : (gatherRowsDims N C E wf).start (ix2 e c) idx (0 : Fin 2)
      + (gatherRowsDims N C E wf).batchCoord (ix2 e c) (0 : Fin 2)
      + (gatherRowsDims N C E wf).offCoord (ix2 e c) (0 : Fin 2) = (rowAt hN idx e).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gatherRowsDims N C E wf).startIndexMap from List.mem_singleton.mpr rfl)]
    have hsi : (gatherRowsDims N C E wf).siIdx (ix2 e c)
        ⟨List.idxOf (0 : Fin 2) (gatherRowsDims N C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N C E wf).start (ix2 e c) idx (1 : Fin 2)
      + (gatherRowsDims N C E wf).batchCoord (ix2 e c) (1 : Fin 2)
      + (gatherRowsDims N C E wf).offCoord (ix2 e c) (1 : Fin 2) = c.val := by
    have hstart : (gatherRowsDims N C E wf).start (ix2 e c) idx (1 : Fin 2) = 0 := by
      unfold GatherDims.start
      rw [dif_neg (show (1 : Fin 2) ∉ (gatherRowsDims N C E wf).startIndexMap from
        (by decide : (1 : Fin 2) ∉ [(0 : Fin 2)]))]
    have hoff : (gatherRowsDims N C E wf).offCoord (ix2 e c) (1 : Fin 2) = c.val := by
      unfold GatherDims.offCoord
      rw [dif_pos (show (1 : Fin 2) ∈ (gatherRowsDims N C E wf).sKept from
        (by decide : (1 : Fin 2) ∈ (List.finRange 2).filter (· ∉ ([(0 : Fin 2)] ++ []))))]
      rfl
    rw [GatherDims.batchCoord_eq_zero _ _ _ List.not_mem_nil, hstart, hoff]; omega
  funext a
  refine Fin.ext ?_
  match a with
  | ⟨0, _⟩ => exact h0
  | ⟨1, _⟩ => exact h1

/-! ## Scatter-adding whole rows -/

/-- The dimension numbers of a scatter of whole rows: operand `[N, C]`, scatter indices `[E, 1]` (one row number per
    update row), updates `[E, C]`; update row `e` goes, whole, to the operand row its index names. -/
abbrev scatterRowsDims (N C E : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update element `(e, c')` lands on `(r, c)` exactly when row `e`'s index, read signed, is `r` and `c' = c`. -/
theorem resultIdx_rows_iff (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (scatterRowsDims N C E wf).resultIdx? (ix2 e c') idx = some (ix2 r c)
      ↔ (idx (ix2 e (0 : Fin 1))).toInt = (r.val : ℤ) ∧ c' = c := by
  have hs0 : (scatterRowsDims N C E wf).start (ix2 e c') idx (0 : Fin 2) = (idx (ix2 e (0 : Fin 1))).toInt := by
    unfold ScatterDims.start
    rw [dif_pos (show (0 : Fin 2) ∈ (scatterRowsDims N C E wf).scatterDimsToOperandDims from
      List.mem_singleton.mpr rfl)]
    have hsi : (scatterRowsDims N C E wf).siIdx (ix2 e c')
        ⟨List.idxOf (0 : Fin 2) (scatterRowsDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N C E wf).start (ix2 e c') idx (1 : Fin 2) = 0 := by
    unfold ScatterDims.start
    rw [dif_neg (show (1 : Fin 2) ∉ (scatterRowsDims N C E wf).scatterDimsToOperandDims from
      (by decide : (1 : Fin 2) ∉ [(0 : Fin 2)]))]
  have hw0 : (scatterRowsDims N C E wf).window (ix2 e c') (0 : Fin 2) = 0 := by
    unfold ScatterDims.window
    rw [dif_neg (show (0 : Fin 2) ∉ (scatterRowsDims N C E wf).sKept from
      (by decide : (0 : Fin 2) ∉ (List.finRange 2).filter (· ∉ [(0 : Fin 2)])))]
  have hw1 : (scatterRowsDims N C E wf).window (ix2 e c') (1 : Fin 2) = c'.val := by
    unfold ScatterDims.window
    rw [dif_pos (show (1 : Fin 2) ∈ (scatterRowsDims N C E wf).sKept from
      (by decide : (1 : Fin 2) ∈ (List.finRange 2).filter (· ∉ [(0 : Fin 2)])))]
    rfl
  unfold ScatterDims.resultIdx?
  constructor
  · intro h
    split at h
    · rename_i hall
      have hf := Option.some.inj h
      have h0 : ((scatterRowsDims N C E wf).start (ix2 e c') idx (0 : Fin 2)
          + ((scatterRowsDims N C E wf).window (ix2 e c') (0 : Fin 2) : ℤ)).toNat = r.val :=
        congrArg Fin.val (congrFun hf (0 : Fin 2))
      have h1 : ((scatterRowsDims N C E wf).start (ix2 e c') idx (1 : Fin 2)
          + ((scatterRowsDims N C E wf).window (ix2 e c') (1 : Fin 2) : ℤ)).toNat = c.val :=
        congrArg Fin.val (congrFun hf (1 : Fin 2))
      have ha0 := (hall (0 : Fin 2)).1
      rw [hs0, hw0] at h0 ha0
      rw [hs1, hw1] at h1
      refine ⟨by omega, Fin.ext (by omega)⟩
    · exact absurd h (by simp)
  · rintro ⟨hr, rfl⟩
    have hall : ∀ a : Fin 2, 0 ≤ (scatterRowsDims N C E wf).start (ix2 e c') idx a
          + ((scatterRowsDims N C E wf).window (ix2 e c') a : ℤ)
        ∧ (scatterRowsDims N C E wf).start (ix2 e c') idx a + ((scatterRowsDims N C E wf).window (ix2 e c') a : ℤ)
          < ((⟨2, ![N, C]⟩ : Shape).size a : ℤ) := by
      intro a
      match a with
      | ⟨0, _⟩ =>
        show 0 ≤ (scatterRowsDims N C E wf).start (ix2 e c') idx (0 : Fin 2)
            + ((scatterRowsDims N C E wf).window (ix2 e c') (0 : Fin 2) : ℤ)
          ∧ (scatterRowsDims N C E wf).start (ix2 e c') idx (0 : Fin 2)
            + ((scatterRowsDims N C E wf).window (ix2 e c') (0 : Fin 2) : ℤ) < (N : ℤ)
        rw [hs0, hw0, hr]; have := r.isLt; omega
      | ⟨1, _⟩ =>
        show 0 ≤ (scatterRowsDims N C E wf).start (ix2 e c') idx (1 : Fin 2)
            + ((scatterRowsDims N C E wf).window (ix2 e c') (1 : Fin 2) : ℤ)
          ∧ (scatterRowsDims N C E wf).start (ix2 e c') idx (1 : Fin 2)
            + ((scatterRowsDims N C E wf).window (ix2 e c') (1 : Fin 2) : ℤ) < (C : ℤ)
        rw [hs1, hw1]; have := c'.isLt; omega
    rw [dif_pos hall]
    congr 1
    funext a
    refine Fin.ext ?_
    match a with
    | ⟨0, _⟩ =>
      show ((scatterRowsDims N C E wf).start (ix2 e c') idx (0 : Fin 2)
        + ((scatterRowsDims N C E wf).window (ix2 e c') (0 : Fin 2) : ℤ)).toNat = r.val
      rw [hs0, hw0, hr]; omega
    | ⟨1, _⟩ =>
      show ((scatterRowsDims N C E wf).start (ix2 e c') idx (1 : Fin 2)
        + ((scatterRowsDims N C E wf).window (ix2 e c') (1 : Fin 2) : ℤ)).toNat = c'.val
      rw [hs1, hw1]; omega

/-- The scatter-add read at `(r, c)`: the operand's entry plus the updates' column-`c` entries of the rows whose
    index, read signed, is `r`. -/
theorem scatterRows_apply (wf : ScatterDims.WF ⟨2, ![N, C]⟩ ⟨2, ![E, 1]⟩ ⟨2, ![E, C]⟩ [1] [0] [0] 1)
    (x : Cert.Spec.Mat N C) (idx : IVec ⟨2, ![E, 1]⟩ w) (upd : Cert.Spec.Mat E C) (r : Fin N) (c : Fin C) :
    Ideal.hostScatterAdd (scatterRowsDims N C E wf) x idx upd (ix2 r c)
      = x (ix2 r c) + ∑ e ∈ Finset.univ.filter
          (fun e : Fin E => (idx (ix2 e (0 : Fin 1))).toInt = (r.val : ℤ)), upd (ix2 e c) := by
  unfold Ideal.hostScatterAdd
  congr 1
  rw [Finset.sum_filter, Finset.sum_filter, sum_idx2]
  refine Finset.sum_congr rfl fun e _ => ?_
  by_cases hP : (idx (ix2 e (0 : Fin 1))).toInt = (r.val : ℤ)
  · rw [if_pos hP, Finset.sum_eq_single c]
    · rw [if_pos ((resultIdx_rows_iff wf idx e c r c).mpr ⟨hP, rfl⟩)]
    · intro c' _ hc'
      rw [if_neg (fun h => hc' ((resultIdx_rows_iff wf idx e c' r c).mp h).2)]
    · intro h; exact absurd (Finset.mem_univ _) h
  · rw [if_neg hP]
    refine Finset.sum_eq_zero fun c' _ => ?_
    rw [if_neg (fun h => hP ((resultIdx_rows_iff wf idx e c' r c).mp h).1)]

/-! ## Aggregation commutes with a matrix product -/

/-- The coercion of the reals into the extended reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing gathered rows and multiplying by a matrix commute, for finite entries: scatter-adding, into zeros, the
    gathered rows of `X · W` is `(the scatter-add of the gathered rows of X) · W`. -/
theorem aggregate_mm (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (X : Cert.Spec.Mat N K) (W : Cert.Spec.Mat K C)
    (hX : ∀ i, ∃ r : ℝ, X i = (r : EReal)) (hW : ∀ i, ∃ r : ℝ, W i = (r : EReal))
    (ZC : Cert.Spec.Mat N C) (ZK : Cert.Spec.Mat N K) (hZC : ∀ i, ZC i = 0) (hZK : ∀ i, ZK i = 0)
    (idxs idxd : IVec ⟨2, ![E, 1]⟩ w) :
    Ideal.hostScatterAdd (scatterRowsDims N C E wfsC) ZC idxd
        (Host.gather (gatherRowsDims N C E wfgC) (Cert.Spec.mm X W) idxs)
      = Cert.Spec.mm (Ideal.hostScatterAdd (scatterRowsDims N K E wfsK) ZK idxd
          (Host.gather (gatherRowsDims N K E wfgK) X idxs)) W := by
  funext i
  obtain ⟨r, c, rfl⟩ : ∃ (r : Fin N) (c : Fin C), i = ix2 r c := ⟨i 0, i 1, eq_ix2 i⟩
  rw [scatterRows_apply, Cert.Spec.mm_apply]
  simp only [scatterRows_apply, gatherRows_apply hN, hZC, hZK, zero_add, Cert.Spec.mm_apply]
  choose xr hxr using hX
  choose wr hwr using hW
  simp only [hxr, hwr, ← EReal.coe_mul, ← coe_sum]
  congr 1
  rw [Finset.sum_comm]
  exact Finset.sum_congr rfl fun q _ => (Finset.sum_mul _ _ _).symm

end Cert.LibRows

end
-- ==== Proof.LibVec.lean ====
/-
  A vector gathered and scatter-added along its one axis, for any sizes.  A gather with one start index per result
  entry (operand [N], start indices [E, 1], result [E]) reads, at e, the operand at the position the e-th index names
  (read signed, clamped into [0, N - 1]).  A scatter-add with one index per update entry adds, at r, exactly the
  update entries whose index, read signed, is r; an entry whose index is outside the operand is dropped.  A sum over
  the indices of a one-axis shape is the sum over its coordinate.
-/
import Idealize.ShloMosaic.Lib.ValueIdx
import Idealize.ShloMosaic.PureOps.Ideal
import Idealize.ShloMosaic.PureOps.Ideal.Laws
import proofs.«131683_j25202868092980_1_alg».proof.Proof.LibRows

noncomputable section

open scoped BigOperators

namespace Cert.LibVec

open Idealize.ShloMosaic Idealize.ShloMosaic.ValueIdx Cert.LibRows

variable {N E w : ℕ}

/-- The indices of a one-axis shape are its coordinates. -/
def idxEquiv1 {n : ℕ} : (⟨1, ![n]⟩ : Shape).Idx ≃ Fin n where
  toFun j := j 0
  invFun a := ix1 a
  left_inv j := (eq_ix1 j).symm
  right_inv _ := rfl

theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-! ## Gathering entries -/

/-- The dimension numbers of a gather of single entries: operand [N], start indices [E, 1], result [E]. -/
abbrev gather1Dims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at e: the operand at the position rowAt e. -/
theorem gather1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gather1Dims N E wf) x idx (ix1 e) = x (ix1 (rowAt hN idx e)) := by
  unfold Host.gather
  congr 1
  funext a
  refine Fin.ext ?_
  match a with
  | ⟨0, _⟩ =>
    show (gather1Dims N E wf).start (ix1 e) idx (0 : Fin 1) + (gather1Dims N E wf).batchCoord (ix1 e) (0 : Fin 1)
      + (gather1Dims N E wf).offCoord (ix1 e) (0 : Fin 1) = (rowAt hN idx e).val
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (gather1Dims N E wf).startIndexMap from List.mem_singleton.mpr rfl)]
    have hsi : (gather1Dims N E wf).siIdx (ix1 e)
        ⟨List.idxOf (0 : Fin 1) (gather1Dims N E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Scatter-adding entries -/

/-- Over the extended reals the host's accumulating scatter is the exact sum, for any dimension numbers. -/
theorem scatterAdd_ideal {s si u : Shape} {w : ℕ} (d : ScatterDims s si u) (x : s.Idx → EReal) (idx : IVec si w)
    (upd : u.Idx → EReal) :
    Host.scatterAdd (F := Ideal) (φ := .f32) d x idx upd = Ideal.hostScatterAdd d x idx upd := rfl

/-- The dimension numbers of a scatter of single entries: operand [N], scatter indices [E, 1], updates [E]. -/
abbrev scatter1Dims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update entry e lands on r exactly when its index, read signed, is r. -/
theorem resultIdx1_iff (wf : ScatterDims.WF ⟨1, ![N]⟩ ⟨2, ![E, 1]⟩ ⟨1, ![E]⟩ [] [0] [0] 1)
    (idx : IVec ⟨2, ![E, 1]⟩ w) (e : Fin E) (r : Fin N) :
    (scatter1Dims N E wf).resultIdx? (ix1 e) idx = some (ix1 r)
      ↔ (idx (ix2 e (0 : Fin 1))).toInt = (r.val : ℤ) := by
  have hs0 : (scatter1Dims N E wf).start (ix1 e) idx (0 : Fin 1) = (idx (ix2 e (0 : Fin 1))).toInt := by
    unfold ScatterDims.start
    rw [dif_pos (show (0 : Fin 1) ∈ (scatter1Dims N E wf).scatterDimsToOperandDims from
      List.mem_singleton.mpr rfl)]
    have hsi : (scatter1Dims N E wf).siIdx (ix1 e)
        ⟨List.idxOf (0 : Fin 1) (scatter1Dims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1Dims N E wf).window (ix1 e) (0 : Fin 1) = 0 := by
    unfold ScatterDims.window
    rw [dif_neg (show (0 : Fin 1) ∉ (scatter1Dims N E wf).sKept from
      (by decide : (0 : Fin 1) ∉ (List.finRange 1).filter (· ∉ [(0 : Fin 1)])))]
  unfold ScatterDims.resultIdx?
  constructor
  · intro h
    split at h
    · rename_i hall
      have hf := Option.some.inj h
      have h0 : ((scatter1Dims N E wf).start (ix1 e) idx (0 : Fin 1)
          + ((scatter1Dims N E wf).window (ix1 e) (0 : Fin 1) : ℤ)).toNat = r.val :=
        congrArg Fin.val (congrFun hf (0 : Fin 1))
      have ha0 := (hall (0 : Fin 1)).1
      rw [hs0, hw0] at h0 ha0
      omega
    · exact absurd h (by simp)
  · intro hr
    have hall : ∀ a : Fin 1, 0 ≤ (scatter1Dims N E wf).start (ix1 e) idx a
          + ((scatter1Dims N E wf).window (ix1 e) a : ℤ)
        ∧ (scatter1Dims N E wf).start (ix1 e) idx a + ((scatter1Dims N E wf).window (ix1 e) a : ℤ)
          < ((⟨1, ![N]⟩ : Shape).size a : ℤ) := by
      intro a
      match a with
      | ⟨0, _⟩ =>
        show 0 ≤ (scatter1Dims N E wf).start (ix1 e) idx (0 : Fin 1)
            + ((scatter1Dims N E wf).window (ix1 e) (0 : Fin 1) : ℤ)
          ∧ (scatter1Dims N E wf).start (ix1 e) idx (0 : Fin 1)
            + ((scatter1Dims N E wf).window (ix1 e) (0 : Fin 1) : ℤ) < (N : ℤ)
        rw [hs0, hw0, hr]; have := r.isLt; omega
    rw [dif_pos hall]
    congr 1
    funext a
    refine Fin.ext ?_
    match a with
    | ⟨0, _⟩ =>
      show ((scatter1Dims N E wf).start (ix1 e) idx (0 : Fin 1)
        + ((scatter1Dims N E wf).window (ix1 e) (0 : Fin 1) : ℤ)).toNat = r.val
      rw [hs0, hw0, hr]; omega

/-- The scatter-add read at r: the operand's entry plus the update entries whose index, read signed, is r. -/
theorem scatter1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (r : Fin N) :
    Ideal.hostScatterAdd (scatter1Dims N E wf) x idx upd (ix1 r)
      = x (ix1 r) + ∑ e ∈ Finset.univ.filter
          (fun e : Fin E => (idx (ix2 e (0 : Fin 1))).toInt = (r.val : ℤ)), upd (ix1 e) := by
  unfold Ideal.hostScatterAdd
  congr 1
  rw [Finset.sum_filter, Finset.sum_filter, sum_idx1]
  refine Finset.sum_congr rfl fun e _ => ?_
  by_cases hP : (idx (ix2 e (0 : Fin 1))).toInt = (r.val : ℤ)
  · rw [if_pos hP, if_pos ((resultIdx1_iff wf idx e r).mpr hP)]
  · rw [if_neg hP, if_neg (fun h => hP ((resultIdx1_iff wf idx e r).mp h))]

end Cert.LibVec

end
-- ==== Proof.RefPoint.lean ====
/-
  The reference at one query.

  The reference interpolates a 512 × 512 table, stored flat in row-major order, at a query point (r, z) on the unit
  grid: the cell of a coordinate is its floor clamped to 0 … 510, computed in floats and converted to a 32-bit integer;
  the cell's lines are x1 = cell r, x2 = cell r + 1, y1 = cell z, y2 = cell z + 1 (integers converted back to floats);
  the four corners are read from the table at the flat positions row · 512 + column (small non-negative numbers, so the
  32-bit arithmetic does not wrap and the wrap-around of negative indices does nothing); and the result is

      1 / ((x2 - x1)(y2 - y1)) · (Q11 (x2 - r)(y2 - z) + Q21 (r - x1)(y2 - z) + Q12 (x2 - r)(z - y1) + Q22 (r - x1)(z - y1)).

  For real-valued inputs every stage, read over the exact extended reals at one query e, is a real number (or the word
  of a small natural number), and the result is the interpolated value `bil` of the table at (r e, z e).
-/
import proofs.«131683_j25202868092980_1_alg».proof.Proof.Gen.ReferenceIdeal.Read
import proofs.«131683_j25202868092980_1_alg».proof.Proof.Bilinear
import proofs.«131683_j25202868092980_1_alg».proof.Proof.Cells
import proofs.«131683_j25202868092980_1_alg».proof.Proof.LibConsts
import proofs.«131683_j25202868092980_1_alg».proof.Proof.LibVec

noncomputable section

namespace Cert.RefPoint

open Cert.ReferenceIdeal Cert.ReferenceIdeal.Gen Cert.ReferenceIdeal.Read Idealize.ShloMosaic Idealize.ShloMosaic.ValueIdx
open Cert.Bilinear

/-- Converting a signed word to a float gives the integer it denotes. -/
theorem sitofp_coe (b : BitVec 32) : FloatOps.sitofp (F := Ideal) .f32 b = ((b.toInt : ℝ) : EReal) := rfl

/-- The clamp of the floor of (x - 0) / 1 between the floats of the words 0 and 510 is the number of the cell of x. -/
theorem clip_scalar (x : ℝ) :
    FloatOps.minimumf (F := Ideal) (φ := .f32) (FloatOps.sitofp .f32 510#32)
      (FloatOps.maximumf (FloatOps.sitofp .f32 0#32)
        (FloatOps.hostUnary .floor
          (FloatOps.hostDivf (FloatOps.subf (x : EReal) (FloatOps.ofBits .f32 0x00000000#32))
            (FloatOps.ofBits .f32 0x3F800000#32))))
      = (((cell x).val : ℝ) : EReal) := by
  rw [sitofp_coe, sitofp_coe, Ideal.minimumf_def, Ideal.maximumf_def, Ideal.hostUnary_floor_def, Ideal.hostDivf_def,
    Ideal.subf_def, Ideal.ofBits_def, Ideal.ofBits_def, Cert.Consts.ofBits_zero, Cert.Consts.ofBits_one, sub_zero,
    Cert.Consts.div_real x one_ne_zero, div_one]
  have h510 : ((510#32 : BitVec 32).toInt : ℝ) = 510 := by
    have : (510#32 : BitVec 32).toInt = 510 := by decide
    rw [this]; norm_num
  have h0 : ((0#32 : BitVec 32).toInt : ℝ) = 0 := by
    have : (0#32 : BitVec 32).toInt = 0 := by decide
    rw [this]; norm_num
  rw [h510, h0]
  exact Cert.Cells.clip_coe x

/-- A small number's word, converted to a float, times 1.0 plus 0.0, is the number. -/
theorem grid_scalar (n : ℕ) (h : n < 2 ^ 31) :
    FloatOps.addf (F := Ideal) (φ := .f32)
      (FloatOps.mulf (FloatOps.sitofp .f32 (BitVec.ofNat 32 n)) (FloatOps.ofBits .f32 0x3F800000#32))
      (FloatOps.ofBits .f32 0x00000000#32) = ((n : ℝ) : EReal) := by
  rw [sitofp_coe, Ideal.addf_def, Ideal.mulf_def, Ideal.ofBits_def, Ideal.ofBits_def, Cert.Consts.ofBits_one,
    Cert.Consts.ofBits_zero, add_zero, ← EReal.coe_mul, mul_one, Cert.Cells.toInt_ofNat_small n h, Int.cast_natCast]

/-- Words of small numbers add and multiply as the numbers do. -/
theorem flat_scalar (n k : ℕ) :
    IntOp.addi (IntOp.muli (BitVec.ofNat 32 n) 512#32) (BitVec.ofNat 32 k) = BitVec.ofNat 32 (n * 512 + k) := by
  show BitVec.ofNat 32 n * BitVec.ofNat 32 512 + BitVec.ofNat 32 k = _
  rw [← BitVec.ofNat_mul, ← BitVec.ofNat_add]

theorem succ_scalar (n : ℕ) : IntOp.addi (BitVec.ofNat 32 n) 1#32 = BitVec.ofNat 32 (n + 1) := by
  show BitVec.ofNat 32 n + BitVec.ofNat 32 1 = _
  rw [← BitVec.ofNat_add]

/-- A small number's word is not negative, so the wrap-around of negative indices leaves it alone. -/
theorem norm_scalar (m : ℕ) (h : m < 2 ^ 31) (y : BitVec 32) :
    Scalar.select (IntOp.cmpi .slt (BitVec.ofNat 32 m) 0#32) y (BitVec.ofNat 32 m) = BitVec.ofNat 32 m := by
  have hs : (BitVec.ofNat 32 m).slt 0#32 = false := by
    rw [BitVec.slt, Cert.Cells.toInt_ofNat_small m h]
    have : (0#32 : BitVec 32).toInt = 0 := by decide
    rw [this]
    exact decide_eq_false (by omega)
  unfold Scalar.select IntOp.cmpi
  simp only [hs]
  exact if_neg (by decide)

/-! ## The cells, the grid lines and the flat indices at one query -/

section stages
variable (R Z : S20000000.Idx → ℝ) (i : S20000000.Idx)

theorem v5_at : val_main_v5 (F := Ideal) (fun j => ((R j : ℝ) : EReal)) i = (((cell (R i)).val : ℝ) : EReal) := by
  rw [val_main_v5_apply, val_main_call0_v4_apply, val_main_call0_v3_apply, val_main_c_1_apply, val_main_call0_v2_apply,
    val_main_call0_v1_apply, val_main_call0_v0_apply, val_main_c_apply, val_main_v4_apply, val_main_v3_apply,
    val_main_v1_apply, val_main_v0_apply, val_main_cst_apply, val_main_v2_apply, val_main_cst_0_apply]
  exact clip_scalar (R i)

theorem v12_at : val_main_v12 (F := Ideal) (fun j => ((Z j : ℝ) : EReal)) i = (((cell (Z i)).val : ℝ) : EReal) := by
  rw [val_main_v12_apply, val_main_call1_v4_apply, val_main_call1_v3_apply, val_main_c_5_apply, val_main_call1_v2_apply,
    val_main_call1_v1_apply, val_main_call1_v0_apply, val_main_c_4_apply, val_main_v11_apply, val_main_v10_apply,
    val_main_v8_apply, val_main_v7_apply, val_main_cst_2_apply, val_main_v9_apply, val_main_cst_3_apply]
  exact clip_scalar (Z i)

theorem v6_at : val_main_v6 (F := Ideal) (fun j => ((R j : ℝ) : EReal)) i = BitVec.ofNat 32 (cell (R i)).val := by
  rw [val_main_v6_apply, v5_at]
  exact Cert.Cells.fptosi_cell (R i)

theorem v13_at : val_main_v13 (F := Ideal) (fun j => ((Z j : ℝ) : EReal)) i = BitVec.ofNat 32 (cell (Z i)).val := by
  rw [val_main_v13_apply, v12_at]
  exact Cert.Cells.fptosi_cell (Z i)

theorem v15_at : val_main_v15 (F := Ideal) (fun j => ((R j : ℝ) : EReal)) i = BitVec.ofNat 32 ((cell (R i)).val + 1) := by
  rw [val_main_v15_apply, v6_at, val_main_v14_apply, val_main_c_6_apply]
  exact succ_scalar _

theorem v17_at : val_main_v17 (F := Ideal) (fun j => ((Z j : ℝ) : EReal)) i = BitVec.ofNat 32 ((cell (Z i)).val + 1) := by
  rw [val_main_v17_apply, v13_at, val_main_v16_apply, val_main_c_7_apply]
  exact succ_scalar _

theorem v22_at : val_main_v22 (F := Ideal) (fun j => ((R j : ℝ) : EReal)) i = (((cell (R i)).val : ℝ) : EReal) := by
  rw [val_main_v22_apply, val_main_v20_apply, val_main_v18_apply, v6_at, val_main_v19_apply, val_main_cst_8_apply,
    val_main_v21_apply, val_main_cst_9_apply]
  exact grid_scalar _ (by have := (cell (R i)).isLt; omega)

theorem v27_at : val_main_v27 (F := Ideal) (fun j => ((R j : ℝ) : EReal)) i = ((((cell (R i)).val : ℝ) + 1 : ℝ) : EReal) := by
  rw [val_main_v27_apply, val_main_v25_apply, val_main_v23_apply, v15_at, val_main_v24_apply, val_main_cst_10_apply,
    val_main_v26_apply, val_main_cst_11_apply]
  rw [grid_scalar _ (by have := (cell (R i)).isLt; omega)]
  push_cast; rfl

theorem v32_at : val_main_v32 (F := Ideal) (fun j => ((Z j : ℝ) : EReal)) i = (((cell (Z i)).val : ℝ) : EReal) := by
  rw [val_main_v32_apply, val_main_v30_apply, val_main_v28_apply, v13_at, val_main_v29_apply, val_main_cst_12_apply,
    val_main_v31_apply, val_main_cst_13_apply]
  exact grid_scalar _ (by have := (cell (Z i)).isLt; omega)

theorem v37_at : val_main_v37 (F := Ideal) (fun j => ((Z j : ℝ) : EReal)) i = ((((cell (Z i)).val : ℝ) + 1 : ℝ) : EReal) := by
  rw [val_main_v37_apply, val_main_v35_apply, val_main_v33_apply, v17_at, val_main_v34_apply, val_main_cst_14_apply,
    val_main_v36_apply, val_main_cst_15_apply]
  rw [grid_scalar _ (by have := (cell (Z i)).isLt; omega)]
  push_cast; rfl

end stages

/-! ## The four corners read from the table -/

/-- The index column of a query is the query's index. -/
theorem idx46 (e : Fin 20000000) : idx_main_v46 (ix2 e (0 : Fin 1)) = ix1 e := by
  funext a; match a with | ⟨0, _⟩ => rfl
theorem idx56 (e : Fin 20000000) : idx_main_v56 (ix2 e (0 : Fin 1)) = ix1 e := by
  funext a; match a with | ⟨0, _⟩ => rfl
theorem idx66 (e : Fin 20000000) : idx_main_v66 (ix2 e (0 : Fin 1)) = ix1 e := by
  funext a; match a with | ⟨0, _⟩ => rfl
theorem idx76 (e : Fin 20000000) : idx_main_v76 (ix2 e (0 : Fin 1)) = ix1 e := by
  funext a; match a with | ⟨0, _⟩ => rfl

/-- A gather of single entries whose index at e is the word of a position m inside the table reads the table at m. -/
theorem gather_at (T : S262144.Idx → EReal) (idx : IVec S20000000x1 32) (e : Fin 20000000) (m : ℕ) (hm : m < 262144)
    (h : idx (ix2 e (0 : Fin 1)) = BitVec.ofNat 32 m) :
    Host.gather gather_S262144_S20000000x1_S20000000_n_0_n_n_0_1_1 T idx (ix1 e) = T (ix1 ⟨m, hm⟩) := by
  have hN : 0 < 262144 := by norm_num
  refine (Cert.LibVec.gather1_apply (N := 262144) (E := 20000000) hN
    Facts₀.gather_S262144_S20000000x1_S20000000_n_0_n_n_0_1_1_wf T idx e).trans ?_
  congr 2
  refine Fin.ext ?_
  show min (idx (ix2 e (0 : Fin 1))).toInt.toNat (262144 - 1) = m
  rw [h, Cert.Cells.toInt_ofNat_small m (by omega), Int.toNat_natCast]
  omega

section corners
variable (R Z : S20000000.Idx → ℝ) (Tt : S262144.Idx → ℝ) (e : Fin 20000000)

theorem v45_at : val_main_v45 (F := Ideal) (fun j => ((R j : ℝ) : EReal)) (fun j => ((Z j : ℝ) : EReal)) (ix1 e)
    = BitVec.ofNat 32 ((cell (R (ix1 e))).val * 512 + (cell (Z (ix1 e))).val) := by
  rw [val_main_v45_apply, val_main_v42_apply, val_main_v40_apply, val_main_v39_apply, v6_at, val_main_v38_apply,
    val_main_c_16_apply, v13_at, val_main_v41_apply, val_main_c_17_apply, flat_scalar]
  exact norm_scalar _ (by have := (cell (R (ix1 e))).isLt; have := (cell (Z (ix1 e))).isLt; omega) _

theorem v55_at : val_main_v55 (F := Ideal) (fun j => ((R j : ℝ) : EReal)) (fun j => ((Z j : ℝ) : EReal)) (ix1 e)
    = BitVec.ofNat 32 ((cell (R (ix1 e))).val * 512 + ((cell (Z (ix1 e))).val + 1)) := by
  rw [val_main_v55_apply, val_main_v52_apply, val_main_v50_apply, val_main_v49_apply, v6_at, val_main_v48_apply,
    val_main_c_19_apply, v17_at, val_main_v51_apply, val_main_c_20_apply, flat_scalar]
  exact norm_scalar _ (by have := (cell (R (ix1 e))).isLt; have := (cell (Z (ix1 e))).isLt; omega) _

theorem v65_at : val_main_v65 (F := Ideal) (fun j => ((R j : ℝ) : EReal)) (fun j => ((Z j : ℝ) : EReal)) (ix1 e)
    = BitVec.ofNat 32 (((cell (R (ix1 e))).val + 1) * 512 + (cell (Z (ix1 e))).val) := by
  rw [val_main_v65_apply, val_main_v62_apply, val_main_v60_apply, val_main_v59_apply, v15_at, val_main_v58_apply,
    val_main_c_22_apply, v13_at, val_main_v61_apply, val_main_c_23_apply, flat_scalar]
  exact norm_scalar _ (by have := (cell (R (ix1 e))).isLt; have := (cell (Z (ix1 e))).isLt; omega) _

theorem v75_at : val_main_v75 (F := Ideal) (fun j => ((R j : ℝ) : EReal)) (fun j => ((Z j : ℝ) : EReal)) (ix1 e)
    = BitVec.ofNat 32 (((cell (R (ix1 e))).val + 1) * 512 + ((cell (Z (ix1 e))).val + 1)) := by
  rw [val_main_v75_apply, val_main_v72_apply, val_main_v70_apply, val_main_v69_apply, v15_at, val_main_v68_apply,
    val_main_c_25_apply, v17_at, val_main_v71_apply, val_main_c_26_apply, flat_scalar]
  exact norm_scalar _ (by have := (cell (R (ix1 e))).isLt; have := (cell (Z (ix1 e))).isLt; omega) _

theorem v47_at :
    val_main_v47 (F := Ideal) (fun j => ((R j : ℝ) : EReal)) (fun j => ((Z j : ℝ) : EReal)) (fun j => ((Tt j : ℝ) : EReal)) (ix1 e)
      = ((Tt (ix1 (flat (cell (R (ix1 e))).castSucc (cell (Z (ix1 e))).castSucc)) : ℝ) : EReal) := by
  unfold val_main_v47
  exact gather_at _ _ e _ (flat (cell (R (ix1 e))).castSucc (cell (Z (ix1 e))).castSucc).isLt
    (by rw [val_main_v46_apply, idx46, v45_at]; rfl)

theorem v57_at :
    val_main_v57 (F := Ideal) (fun j => ((R j : ℝ) : EReal)) (fun j => ((Z j : ℝ) : EReal)) (fun j => ((Tt j : ℝ) : EReal)) (ix1 e)
      = ((Tt (ix1 (flat (cell (R (ix1 e))).castSucc (cell (Z (ix1 e))).succ)) : ℝ) : EReal) := by
  unfold val_main_v57
  exact gather_at _ _ e _ (flat (cell (R (ix1 e))).castSucc (cell (Z (ix1 e))).succ).isLt
    (by rw [val_main_v56_apply, idx56, v55_at]; rfl)

theorem v67_at :
    val_main_v67 (F := Ideal) (fun j => ((R j : ℝ) : EReal)) (fun j => ((Z j : ℝ) : EReal)) (fun j => ((Tt j : ℝ) : EReal)) (ix1 e)
      = ((Tt (ix1 (flat (cell (R (ix1 e))).succ (cell (Z (ix1 e))).castSucc)) : ℝ) : EReal) := by
  unfold val_main_v67
  exact gather_at _ _ e _ (flat (cell (R (ix1 e))).succ (cell (Z (ix1 e))).castSucc).isLt
    (by rw [val_main_v66_apply, idx66, v65_at]; rfl)

theorem v77_at :
    val_main_v77 (F := Ideal) (fun j => ((R j : ℝ) : EReal)) (fun j => ((Z j : ℝ) : EReal)) (fun j => ((Tt j : ℝ) : EReal)) (ix1 e)
      = ((Tt (ix1 (flat (cell (R (ix1 e))).succ (cell (Z (ix1 e))).succ)) : ℝ) : EReal) := by
  unfold val_main_v77
  exact gather_at _ _ e _ (flat (cell (R (ix1 e))).succ (cell (Z (ix1 e))).succ).isLt
    (by rw [val_main_v76_apply, idx76, v75_at]; rfl)

end corners

/-! ## The weighted corners over the cell's area -/

/-- The four-corner formula on coerced reals, with the cell's lines at cell and cell + 1, is the interpolated value. -/
theorem corners_scalar (r z : ℝ) (T : Fin 512 → Fin 512 → ℝ) :
    FloatOps.mulf (F := Ideal) (φ := .f32)
      (FloatOps.hostDivf (FloatOps.ofBits .f32 0x3F800000#32)
        (FloatOps.mulf
          (FloatOps.subf ((((cell r).val : ℝ) + 1 : ℝ) : EReal) ((((cell r).val : ℝ) : ℝ) : EReal))
          (FloatOps.subf ((((cell z).val : ℝ) + 1 : ℝ) : EReal) ((((cell z).val : ℝ) : ℝ) : EReal))))
      (FloatOps.addf
        (FloatOps.addf
          (FloatOps.addf
            (FloatOps.mulf
              (FloatOps.mulf ((T (cell r).castSucc (cell z).castSucc : ℝ) : EReal)
                (FloatOps.subf ((((cell r).val : ℝ) + 1 : ℝ) : EReal) (r : EReal)))
              (FloatOps.subf ((((cell z).val : ℝ) + 1 : ℝ) : EReal) (z : EReal)))
            (FloatOps.mulf
              (FloatOps.mulf ((T (cell r).succ (cell z).castSucc : ℝ) : EReal)
                (FloatOps.subf (r : EReal) ((((cell r).val : ℝ) : ℝ) : EReal)))
              (FloatOps.subf ((((cell z).val : ℝ) + 1 : ℝ) : EReal) (z : EReal))))
          (FloatOps.mulf
            (FloatOps.mulf ((T (cell r).castSucc (cell z).succ : ℝ) : EReal)
              (FloatOps.subf ((((cell r).val : ℝ) + 1 : ℝ) : EReal) (r : EReal)))
            (FloatOps.subf (z : EReal) ((((cell z).val : ℝ) : ℝ) : EReal))))
        (FloatOps.mulf
          (FloatOps.mulf ((T (cell r).succ (cell z).succ : ℝ) : EReal)
            (FloatOps.subf (r : EReal) ((((cell r).val : ℝ) : ℝ) : EReal)))
          (FloatOps.subf (z : EReal) ((((cell z).val : ℝ) : ℝ) : EReal))))
      = ((bil r z T : ℝ) : EReal) := by
  have harea : ((((cell r).val : ℝ) + 1 - ((cell r).val : ℝ)) * (((cell z).val : ℝ) + 1 - ((cell z).val : ℝ))) ≠ 0 := by
    have : ((((cell r).val : ℝ) + 1 - ((cell r).val : ℝ)) * (((cell z).val : ℝ) + 1 - ((cell z).val : ℝ))) = 1 := by ring
    rw [this]; exact one_ne_zero
  simp only [Ideal.mulf_def, Ideal.subf_def, Ideal.addf_def, Ideal.hostDivf_def, Ideal.ofBits_def, Cert.Consts.ofBits_one,
    ← EReal.coe_sub, ← EReal.coe_mul, ← EReal.coe_add]
  rw [Cert.Consts.div_real 1 harea, ← EReal.coe_mul]
  exact congrArg _ (bil_eq_corners r z T _ _ _ _ rfl rfl rfl rfl)

/-- The reference's result at query e is the interpolated value of the table at (r e, z e). -/
theorem ref_apply (R Z : S20000000.Idx → ℝ) (Tt : S262144.Idx → ℝ) (e : Fin 20000000) :
    val_main_v102 (F := Ideal) (fun i => ((R i : ℝ) : EReal)) (fun i => ((Z i : ℝ) : EReal))
        (fun i => ((Tt i : ℝ) : EReal)) (ix1 e)
      = ((bil (R (ix1 e)) (Z (ix1 e)) (fun i j => Tt (ix1 (flat i j))) : ℝ) : EReal) := by
  rw [val_main_v102_apply, val_main_v82_apply, val_main_v81_apply, val_main_cst_28_apply, val_main_v80_apply,
    val_main_v78_apply, val_main_v79_apply, val_main_v101_apply, val_main_v96_apply, val_main_v91_apply,
    val_main_v86_apply, val_main_v84_apply, val_main_v83_apply, val_main_v85_apply, val_main_v90_apply,
    val_main_v88_apply, val_main_v87_apply, val_main_v89_apply, val_main_v95_apply, val_main_v93_apply,
    val_main_v92_apply, val_main_v94_apply, val_main_v100_apply, val_main_v98_apply, val_main_v97_apply,
    val_main_v99_apply, v27_at, v22_at, v37_at, v32_at, v47_at, v57_at, v67_at, v77_at]
  exact corners_scalar (R (ix1 e)) (Z (ix1 e)) (fun i j => Tt (ix1 (flat i j)))

end Cert.RefPoint

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«131683_j25202868092980_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibKeepdims.lean ====
/-
  Changes of layout between a matrix of rows and a three-axis array, read at an index, for any sizes.

  An [a, b] array viewed as [a, b, 1] (a trailing unit axis added), an [a, b, 1] array repeated along its unit axis to
  [a, b, c], and the two casts between [a, b, c] and [m, c] with m = a · b (the leading two axes merged into rows,
  row i · b + j, and split back): each result entry is one operand entry, named here by coordinates.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if 1 = 1 then 0 else k.val
    rfl

/-- An `[a, b, c]` array cast to `[m, c]` reads, at row `i * b + j` and column `k`, the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` array cast to `[a, b, c]` reads, at `(i, j, k)`, the operand at row `i * b + j` and column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Layout

end Cert.LibKeepdims

end
-- ==== Proof.KernelPoint.lean ====
/-
  The kernel body at one entry.

  For a query (p, q) with coordinates r (first block) and z (second block), the body clamps the floor of each
  coordinate to 0 … 510 (the coordinate's cell n, also as a 32-bit integer), forms the weights n + 1 - r and r - n (and
  the same for z), spreads them over the 512 lanes as two-hot selectors (the lane numbers compared with the words of
  n and n + 1), contracts the row selector with the 512 × 512 table by a matrix product into a zero accumulator — the
  2048 = 16 · 128 queries laid out as rows, query (p, q) at row 128 p + q —, multiplies by the column selector and sums
  over the lanes.  Over real-valued inputs this is

      ∑ j, (∑ i, wgt r i · T i j) · wgt z j,

  the two-hot form of the bilinear interpolation of the table at (r, z).

  The steps: what the body stores is its one payload (the store covers the whole block); the payload at (p, q) is the
  double sum above over selector entries (the lane sum, the two changes of layout around the matrix product, the
  product itself, the broadcasts along the lanes); each integer and float ingredient of the selectors at a real
  coordinate; a selector entry against a small number's word is an if-then-else on the lane number, and the two
  entries of a cell add up to the coordinate's weight of that grid line.
-/
import proofs.«131683_j25202868092980_1_alg».proof.Proof.Gen.KernelIdeal.Frame
import proofs.«131683_j25202868092980_1_alg».proof.Proof.Bilinear
import proofs.«131683_j25202868092980_1_alg».proof.Proof.Cells
import proofs.«131683_j25202868092980_1_alg».proof.Proof.LibConsts
import proofs.«131683_j25202868092980_1_alg».proof.Proof.LibPlainDot
import proofs.«131683_j25202868092980_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelPoint

open Idealize.ShloMosaic Idealize.ShloMosaic.ValueIdx Cert.KernelIdeal Cert.KernelIdeal.Gen Cert.Bilinear Cert.LibKeepdims

/-! ## What the body stores -/

/-- The zero offsets of the whole-block rectangle. -/
theorem hz : (![0, 0] : Fin 2 → Nat) = fun _ => 0 := funext fun a => by fin_cases a <;> rfl

/-- The body loads its three blocks whole and stores once, over the whole output block: what it leaves is its payload
    of the blocks. -/
theorem out_unfold (x0 x1 : Vec Ideal S16x128 .f32) (x2 : Vec Ideal S512x512 .bf16) :
    out0_3 (F := Ideal) x0 x1 x2 = k0_pay1 (k0_pay8 x1) (k0_pay9 x1) (iota .tc S16x128x512 32 [2] iota_S16x128x512_d2_w32) (k0_pay10 x0) (k0_pay11 x0) (k0_pay12 x1) (k0_pay13 x1) (k0_pay14 x0) (k0_pay15 x0) x2 := by
  unfold out0_3
  rw [View.canon_unit_zero hz]
  simp only [View.ld_unit_zero (S := S16x128) hz, View.ld_unit_zero (S := S512x512) hz]

/-! ## The payload as a double sum over selector entries -/

/-- The selector entry: `a` where the lane number is the word `n`, the zero word's value elsewhere. -/
def sel (i : Fin 512) (n : BitVec 32) (a : EReal) : EReal :=
  Scalar.select (IntOp.cmpi .eq (BitVec.ofNat 32 i.val) n) a (Ideal.ofBits .f32 0x00000000#32)

/-- A two-hot selector over the 512 lanes, read at `(p, q, i)`: the lane numbers compared with two per-query words,
    each hit carrying its per-query weight. -/
theorem twoHot_apply (n0 n1 : IVec S16x128x1 32) (a b : FVec Ideal S16x128x1 .f32) (p : Fin 16) (q : Fin 128) (i : Fin 512) :
    addf
      (select
        (cmpi CmpIPredicate.eq (iota Kind.tc S16x128x512 32 [2] iota_S16x128x512_d2_w32)
          (broadcastTo S16x128x512 n0 broadcasts_S16x128x1_S16x128x512))
        (broadcastTo S16x128x512 (shapeCast S16x128x1 a shapeCasts_S16x128x1_S16x128x1) broadcasts_S16x128x1_S16x128x512)
        (broadcast S16x128x512 (FloatOps.ofBits (F := Ideal) FTy.f32 0#32)))
      (select
        (cmpi CmpIPredicate.eq (iota Kind.tc S16x128x512 32 [2] iota_S16x128x512_d2_w32)
          (broadcastTo S16x128x512 n1 broadcasts_S16x128x1_S16x128x512))
        (broadcastTo S16x128x512 (shapeCast S16x128x1 b shapeCasts_S16x128x1_S16x128x1) broadcasts_S16x128x1_S16x128x512)
        (broadcast S16x128x512 (FloatOps.ofBits (F := Ideal) FTy.f32 0#32)))
      (ix3 p q i)
      = sel i (n0 (ix3 p q 0)) (a (ix3 p q 0)) + sel i (n1 (ix3 p q 0)) (b (ix3 p q 0)) := by
  show Scalar.select (IntOp.cmpi .eq (iota Kind.tc S16x128x512 32 [2] iota_S16x128x512_d2_w32 (ix3 p q i))
          (broadcastTo S16x128x512 n0 broadcasts_S16x128x1_S16x128x512 (ix3 p q i)))
        (broadcastTo S16x128x512 (shapeCast S16x128x1 a shapeCasts_S16x128x1_S16x128x1) broadcasts_S16x128x1_S16x128x512 (ix3 p q i))
        (Ideal.ofBits .f32 0x00000000#32)
      + Scalar.select (IntOp.cmpi .eq (iota Kind.tc S16x128x512 32 [2] iota_S16x128x512_d2_w32 (ix3 p q i))
          (broadcastTo S16x128x512 n1 broadcasts_S16x128x1_S16x128x512 (ix3 p q i)))
        (broadcastTo S16x128x512 (shapeCast S16x128x1 b shapeCasts_S16x128x1_S16x128x1) broadcasts_S16x128x1_S16x128x512 (ix3 p q i))
        (Ideal.ofBits .f32 0x00000000#32) = _
  rw [iota_single_apply, broadcastTo_ab1_abc_apply, broadcastTo_ab1_abc_apply, broadcastTo_ab1_abc_apply,
    broadcastTo_ab1_abc_apply, shapeCast_self, shapeCast_self]
  rfl

/-- The payload at `(p, q)`: the sum over the lanes `j` of (the row selector of the query contracted with column `j`
    of the table) times the column selector's entry at `j`. -/
theorem pay1_struct (v34 v35 : FVec Ideal S16x128 .f32) (v37 v38 v39 v40 : IVec S16x128x1 32)
    (v41 v42 : FVec Ideal S16x128x1 .f32) (v73 : Vec Ideal S512x512 .bf16) (p : Fin 16) (q : Fin 128) :
    k0_pay1 (F := Ideal) v34 v35 (iota .tc S16x128x512 32 [2] iota_S16x128x512_d2_w32) v37 v38 v39 v40 v41 v42 v73 (ix2 p q)
      = ∑ j : Fin 512, (∑ i : Fin 512, (sel i (v37 (ix3 p q 0)) (v41 (ix3 p q 0)) + sel i (v38 (ix3 p q 0)) (v42 (ix3 p q 0))) * v73 (ix2 i j))
          * (sel j (v39 (ix3 p q 0)) (v34 (ix2 p q)) + sel j (v40 (ix3 p q 0)) (v35 (ix2 p q))) := by
  unfold k0_pay1
  refine (Ideal.multiReduction_add_single _ _ reduces_S16x128x512_S16x128 (.inl rfl) rfl (ix2 p q)).trans ?_
  show ∑ j : Fin 512, _ = _
  refine Finset.sum_congr rfl fun j _ => ?_
  have hl : reduces_S16x128x512_S16x128.lift (ix2 p q) j = ix3 p q j := by
    funext c; apply Fin.ext
    match c with
    | ⟨0, _⟩ => rfl
    | ⟨1, _⟩ => rfl
    | ⟨2, _⟩ => rfl
  rw [hl, mulf_apply]
  have hr : p.val * 128 + q.val < 2048 := by have := p.isLt; have := q.isLt; omega
  congr 1
  · refine (shapeCast_mc_abc_apply _ _ p q j ⟨p.val * 128 + q.val, hr⟩ rfl).trans ?_
    refine (Cert.LibPlainDot.matmul_zero_apply dot_S2048x512_S512x512_S2048x512_1_0_0_1_n_n rfl none _ _ ⟨p.val * 128 + q.val, hr⟩ j).trans ?_
    refine Finset.sum_congr rfl fun i _ => ?_
    rw [truncf_apply, shapeCast_abc_mc_apply _ _ p q i ⟨p.val * 128 + q.val, hr⟩ rfl, twoHot_apply, shapeCast_self]
  · rw [twoHot_apply, shapeCast_ab_ab1_apply, shapeCast_ab_ab1_apply]

/-! ## The selectors' ingredients at a real coordinate -/

section Arithmetic

/-- The zero word is the real number zero. -/
theorem ofBits_zero_coe : Ideal.ofBits .f32 0x00000000#32 = ((0 : ℝ) : EReal) := by
  rw [Cert.Consts.ofBits_zero, EReal.coe_zero]

/-- The clamp of the floor of `(x - 0) / 1` between 0 and 510, for a real `x`, is the number of its cell. -/
theorem clip_real (x : ℝ) :
    min (Ideal.ofBits .f32 0x43FF0000#32) (max (Ideal.ofBits .f32 0x00000000#32)
      (Ideal.liftRound Int.floor (Ideal.div ((x : EReal) - Ideal.ofBits .f32 0x00000000#32) (Ideal.ofBits .f32 0x3F800000#32))))
      = (((cell x).val : ℝ) : EReal) := by
  rw [ofBits_zero_coe, Cert.Consts.ofBits_one, Cert.Cells.ofBits_510, ← EReal.coe_sub, sub_zero,
    Cert.Consts.div_real _ one_ne_zero, div_one]
  exact Cert.Cells.clip_coe x

variable (X : S16x128.Idx → ℝ) (p : Fin 16) (q : Fin 128)

/-- A cast to the same shape reads the block. -/
theorem pay2_apply : k0_pay2 (F := Ideal) (fun i => ((X i : ℝ) : EReal)) (ix2 p q) = ((X (ix2 p q) : ℝ) : EReal) := by
  unfold k0_pay2
  exact congrFun (shapeCast_self _ _) _

/-- A cast to the same shape reads the block. -/
theorem pay3_apply : k0_pay3 (F := Ideal) (fun i => ((X i : ℝ) : EReal)) (ix2 p q) = ((X (ix2 p q) : ℝ) : EReal) := by
  unfold k0_pay3
  exact congrFun (shapeCast_self _ _) _

/-- The clamped floor of a real coordinate is the number of its cell. -/
theorem pay4_apply :
    k0_pay4 (F := Ideal) (fun i => ((X i : ℝ) : EReal)) (ix2 p q) = (((cell (X (ix2 p q))).val : ℝ) : EReal) := by
  show min (Ideal.ofBits .f32 0x43FF0000#32) (max (Ideal.ofBits .f32 0x00000000#32)
      (Ideal.liftRound Int.floor (Ideal.div (k0_pay2 (F := Ideal) (fun i => ((X i : ℝ) : EReal)) (ix2 p q)
        - Ideal.ofBits .f32 0x00000000#32) (Ideal.ofBits .f32 0x3F800000#32)))) = _
  rw [pay2_apply]
  exact clip_real _

/-- The clamped floor of a real coordinate is the number of its cell. -/
theorem pay5_apply :
    k0_pay5 (F := Ideal) (fun i => ((X i : ℝ) : EReal)) (ix2 p q) = (((cell (X (ix2 p q))).val : ℝ) : EReal) := by
  show min (Ideal.ofBits .f32 0x43FF0000#32) (max (Ideal.ofBits .f32 0x00000000#32)
      (Ideal.liftRound Int.floor (Ideal.div (k0_pay3 (F := Ideal) (fun i => ((X i : ℝ) : EReal)) (ix2 p q)
        - Ideal.ofBits .f32 0x00000000#32) (Ideal.ofBits .f32 0x3F800000#32)))) = _
  rw [pay3_apply]
  exact clip_real _

/-- Converted to a 32-bit integer it is the cell's word. -/
theorem pay6_apply :
    k0_pay6 (F := Ideal) (fun i => ((X i : ℝ) : EReal)) (ix2 p q) = BitVec.ofNat 32 (cell (X (ix2 p q))).val := by
  show Ideal.fptosi 32 (k0_pay4 (F := Ideal) (fun i => ((X i : ℝ) : EReal)) (ix2 p q)) = _
  rw [pay4_apply]
  exact Cert.Cells.fptosi_cell _

/-- Converted to a 32-bit integer it is the cell's word. -/
theorem pay7_apply :
    k0_pay7 (F := Ideal) (fun i => ((X i : ℝ) : EReal)) (ix2 p q) = BitVec.ofNat 32 (cell (X (ix2 p q))).val := by
  show Ideal.fptosi 32 (k0_pay5 (F := Ideal) (fun i => ((X i : ℝ) : EReal)) (ix2 p q)) = _
  rw [pay5_apply]
  exact Cert.Cells.fptosi_cell _

/-- The weight of the cell's lower grid line: cell + 1 - x. -/
theorem pay8_apply :
    k0_pay8 (F := Ideal) (fun i => ((X i : ℝ) : EReal)) (ix2 p q)
      = (((((cell (X (ix2 p q))).val : ℝ) + 1 - X (ix2 p q)) : ℝ) : EReal) := by
  show k0_pay5 (F := Ideal) (fun i => ((X i : ℝ) : EReal)) (ix2 p q) + Ideal.ofBits .f32 0x3F800000#32
      - k0_pay3 (F := Ideal) (fun i => ((X i : ℝ) : EReal)) (ix2 p q) = _
  rw [pay5_apply, pay3_apply, Cert.Consts.ofBits_one, ← EReal.coe_add, ← EReal.coe_sub]

/-- The weight of the cell's upper grid line: x - cell. -/
theorem pay9_apply :
    k0_pay9 (F := Ideal) (fun i => ((X i : ℝ) : EReal)) (ix2 p q)
      = (((X (ix2 p q) - ((cell (X (ix2 p q))).val : ℝ)) : ℝ) : EReal) := by
  show k0_pay3 (F := Ideal) (fun i => ((X i : ℝ) : EReal)) (ix2 p q)
      - k0_pay5 (F := Ideal) (fun i => ((X i : ℝ) : EReal)) (ix2 p q) = _
  rw [pay5_apply, pay3_apply, ← EReal.coe_sub]

variable (u : Fin 1)

/-- The cell's word, with a unit lane axis. -/
theorem pay10_apply :
    k0_pay10 (F := Ideal) (fun i => ((X i : ℝ) : EReal)) (ix3 p q u) = BitVec.ofNat 32 (cell (X (ix2 p q))).val := by
  unfold k0_pay10
  exact (shapeCast_ab_ab1_apply _ _ p q u).trans (pay6_apply X p q)

/-- The word of the cell's upper grid line, cell + 1, with a unit lane axis. -/
theorem pay11_apply :
    k0_pay11 (F := Ideal) (fun i => ((X i : ℝ) : EReal)) (ix3 p q u) = BitVec.ofNat 32 ((cell (X (ix2 p q))).val + 1) := by
  unfold k0_pay11
  refine (shapeCast_ab_ab1_apply _ _ p q u).trans ?_
  show k0_pay6 (F := Ideal) (fun i => ((X i : ℝ) : EReal)) (ix2 p q) + 1#32 = _
  rw [pay6_apply, BitVec.ofNat_add]

/-- The cell's word, with a unit lane axis. -/
theorem pay12_apply :
    k0_pay12 (F := Ideal) (fun i => ((X i : ℝ) : EReal)) (ix3 p q u) = BitVec.ofNat 32 (cell (X (ix2 p q))).val := by
  unfold k0_pay12
  exact (shapeCast_ab_ab1_apply _ _ p q u).trans (pay7_apply X p q)

/-- The word of the cell's upper grid line, cell + 1, with a unit lane axis. -/
theorem pay13_apply :
    k0_pay13 (F := Ideal) (fun i => ((X i : ℝ) : EReal)) (ix3 p q u) = BitVec.ofNat 32 ((cell (X (ix2 p q))).val + 1) := by
  unfold k0_pay13
  refine (shapeCast_ab_ab1_apply _ _ p q u).trans ?_
  show k0_pay7 (F := Ideal) (fun i => ((X i : ℝ) : EReal)) (ix2 p q) + 1#32 = _
  rw [pay7_apply, BitVec.ofNat_add]

/-- The weight of the cell's lower grid line, cell + 1 - x, with a unit lane axis. -/
theorem pay14_apply :
    k0_pay14 (F := Ideal) (fun i => ((X i : ℝ) : EReal)) (ix3 p q u)
      = (((((cell (X (ix2 p q))).val : ℝ) + 1 - X (ix2 p q)) : ℝ) : EReal) := by
  unfold k0_pay14
  refine (shapeCast_ab_ab1_apply _ _ p q u).trans ?_
  show k0_pay4 (F := Ideal) (fun i => ((X i : ℝ) : EReal)) (ix2 p q) + Ideal.ofBits .f32 0x3F800000#32
      - k0_pay2 (F := Ideal) (fun i => ((X i : ℝ) : EReal)) (ix2 p q) = _
  rw [pay4_apply, pay2_apply, Cert.Consts.ofBits_one, ← EReal.coe_add, ← EReal.coe_sub]

/-- The weight of the cell's upper grid line, x - cell, with a unit lane axis. -/
theorem pay15_apply :
    k0_pay15 (F := Ideal) (fun i => ((X i : ℝ) : EReal)) (ix3 p q u)
      = (((X (ix2 p q) - ((cell (X (ix2 p q))).val : ℝ)) : ℝ) : EReal) := by
  unfold k0_pay15
  refine (shapeCast_ab_ab1_apply _ _ p q u).trans ?_
  show k0_pay2 (F := Ideal) (fun i => ((X i : ℝ) : EReal)) (ix2 p q)
      - k0_pay4 (F := Ideal) (fun i => ((X i : ℝ) : EReal)) (ix2 p q) = _
  rw [pay4_apply, pay2_apply, ← EReal.coe_sub]

end Arithmetic

/-! ## Selector entries as weights, and the entry's value -/

section Selectors

/-- A selector entry against the word of a number below 2^32, carrying a real weight: the weight at that lane, zero
    elsewhere. -/
theorem sel_ofNat (i : Fin 512) (n : ℕ) (hn : n < 2 ^ 32) (a : ℝ) :
    sel i (BitVec.ofNat 32 n) (a : EReal) = (((if i.val = n then a else 0 : ℝ)) : EReal) := by
  have hi : i.val < 2 ^ 32 := by have := i.isLt; omega
  unfold sel Scalar.select IntOp.cmpi
  by_cases h : i.val = n
  · rw [if_pos h, h]
    simp
  · have hne : BitVec.ofNat 32 i.val ≠ BitVec.ofNat 32 n := fun e => h ((Cert.Cells.ofNat_inj_small _ _ hi hn).mp e)
    have hb : (BitVec.ofNat 32 i.val == BitVec.ofNat 32 n) = false := beq_eq_false_iff_ne.mpr hne
    rw [if_neg h, ofBits_zero_coe, hb]
    simp

/-- The two selector entries of a coordinate's cell — the cell's word with the weight cell + 1 - x, the next word with
    the weight x - cell — add up to the coordinate's weight of grid line `i`. -/
theorem sel_pair (x : ℝ) (i : Fin 512) :
    sel i (BitVec.ofNat 32 (cell x).val) (((((cell x).val : ℝ) + 1 - x) : ℝ) : EReal)
        + sel i (BitVec.ofNat 32 ((cell x).val + 1)) (((x - ((cell x).val : ℝ)) : ℝ) : EReal)
      = ((wgt x i : ℝ) : EReal) := by
  have hc := (cell x).isLt
  have e1 : (i = (cell x).castSucc) ↔ i.val = (cell x).val := by rw [Fin.ext_iff]; rfl
  have e2 : (i = (cell x).succ) ↔ i.val = (cell x).val + 1 := by rw [Fin.ext_iff]; rfl
  rw [sel_ofNat i _ (by omega), sel_ofNat i _ (by omega), ← EReal.coe_add, wgt]
  simp only [e1, e2]

end Selectors

/-- THE KERNEL BODY AT ONE ENTRY: over real-valued blocks of the two coordinates and a real-valued table, the value the
    body leaves at `(p, q)` is the bilinear interpolation of the table at that entry's pair of coordinates. -/
theorem out_apply (X0 X1 : S16x128.Idx → ℝ) (T2 : S512x512.Idx → ℝ) (p : Fin 16) (q : Fin 128) :
    out0_3 (F := Ideal) (fun i => ((X0 i : ℝ) : EReal)) (fun i => ((X1 i : ℝ) : EReal)) (fun i => ((T2 i : ℝ) : EReal)) (ix2 p q)
      = ((bil (X0 (ix2 p q)) (X1 (ix2 p q)) (fun i j => T2 (ix2 i j)) : ℝ) : EReal) := by
  rw [out_unfold, pay1_struct, pay10_apply, pay11_apply, pay12_apply, pay13_apply, pay14_apply, pay15_apply,
    pay8_apply, pay9_apply]
  simp only [sel_pair]
  rw [← bil_eq_sums, Cert.Consts.coe_sum]
  refine Finset.sum_congr rfl fun j _ => ?_
  rw [EReal.coe_mul, Cert.Consts.coe_sum]
  simp only [EReal.coe_mul]

end Cert.KernelPoint

end
-- ==== Proof.KernelArray.lean ====
/-
  From the kernel's blocks to the whole output array, and on to the program's result.

  The region runs over 9766 grid points.  At point t the two query windows and the output window are the 16 rows
  16 t … 16 t + 15 of their [156256, 128] arrays, and the table window is the whole [512, 512] table.  What the body
  leaves in the output block is, entry by entry, the interpolation of the table at that entry's query; so point t
  writes back block t of ONE array G (entry i: the interpolation at the query (A i, B i)), the 9766 blocks tile the
  156256 rows, and after the region the output array is G.  The program then flattens that array to [20000768] and
  keeps the first 20000000 entries.
-/
import proofs.«131683_j25202868092980_1_alg».proof.Proof.Gen.KernelIdeal.Frame
import Idealize.ShloMosaic.Lib.Pipeline.Value
import Idealize.ShloMosaic.Lib.ValueIdx
import Idealize.ShloMosaic.Lib.StableHlo.Run
import proofs.«131683_j25202868092980_1_alg».proof.Proof.Bilinear
import proofs.«131683_j25202868092980_1_alg».proof.Proof.KernelPoint

set_option maxRecDepth 16384

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: at point t the two query windows and the output window sit at block
    row t, block column 0, and the table window at its one block. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = t.val ∧ win0_3.index t (1 : Fin 2) = 0 :=
  (by decide +kernel : ∀ t : Fin grid0.N, _)

/-- What grid point t writes back to the output array: the body's result on the windows' blocks at t. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The [156256, 128] array of interpolated values: entry i interpolates the table Tb at the query (A i, B i). -/
def G (A B : S156256x128.Idx → ℝ) (Tb : S512x512.Idx → ℝ) : S156256x128.Idx → EReal :=
  fun i => ((Cert.Bilinear.bil (A i) (B i) (fun a b => Tb (ix2 a b)) : ℝ) : EReal)

/-- Point t writes back block t of G, when the query arrays and the table hold real numbers as the region finds them:
    the two query blocks and the output block are the same 16 rows, and the table's block is the whole table. -/
theorem flushed3_eq (c : Dev nD) (A B : S156256x128.Idx → ℝ) (Tb : S512x512.Idx → ℝ)
    (hA : (V m c main_v2 : S156256x128.Idx → EReal) = fun i => ((A i : ℝ) : EReal))
    (hB : (V m c main_v3 : S156256x128.Idx → EReal) = fun i => ((B i : ℝ) : EReal))
    (hT : (V m c main_v5 : S512x512.Idx → EReal) = fun i => ((Tb i : ℝ) : EReal)) (t : Fin cfg0.N) :
    (dats m 0 c).flushed 3 t = ((cfg0.win 3).blk t).view.read (Elt Ideal) (G A B Tb) := by
  rw [flushed3]
  obtain ⟨e00, e01, e10, e11, e20, e21, e30, e31⟩ := idx_facts t
  have h0 : iblk m c 0 t = fun y => ((A (((cfg0.win 0).blk t).view.emb y) : ℝ) : EReal) := by
    show (fun y => (V m c main_v2 : S156256x128.Idx → EReal) (((cfg0.win 0).blk t).view.emb y)) = _
    rw [hA]
  have h1 : iblk m c 1 t = fun y => ((B (((cfg0.win 1).blk t).view.emb y) : ℝ) : EReal) := by
    show (fun y => (V m c main_v3 : S156256x128.Idx → EReal) (((cfg0.win 1).blk t).view.emb y)) = _
    rw [hB]
  have h2 : iblk m c 2 t = fun y => ((Tb (((cfg0.win 2).blk t).view.emb y) : ℝ) : EReal) := by
    show (fun y => (V m c main_v5 : S512x512.Idx → EReal) (((cfg0.win 2).blk t).view.emb y)) = _
    rw [hT]
  funext j
  obtain ⟨p, q, rfl⟩ : ∃ (p : Fin 16) (q : Fin 128), j = ix2 p q := ⟨j 0, j 1, eq_ix2 j⟩
  show out0_3 (iblk m c 0 t) (iblk m c 1 t) (iblk m c 2 t) (ix2 p q) = G A B Tb (((cfg0.win 3).blk t).view.emb (ix2 p q))
  rw [h0, h1, h2]
  refine (Cert.KernelPoint.out_apply (fun y => A (((cfg0.win 0).blk t).view.emb y))
    (fun y => B (((cfg0.win 1).blk t).view.emb y)) (fun y => Tb (((cfg0.win 2).blk t).view.emb y)) p q).trans ?_
  dsimp only
  have k0 : ((cfg0.win 0).blk t).view.emb (ix2 p q) = ((cfg0.win 3).blk t).view.emb (ix2 p q) := by
    funext a; apply Fin.ext
    match a with
    | ⟨0, _⟩ => show win0_0.index t (0 : Fin 2) * 16 + 1 * p.val = win0_3.index t (0 : Fin 2) * 16 + 1 * p.val; omega
    | ⟨1, _⟩ => show win0_0.index t (1 : Fin 2) * 128 + 1 * q.val = win0_3.index t (1 : Fin 2) * 128 + 1 * q.val; omega
  have k1 : ((cfg0.win 1).blk t).view.emb (ix2 p q) = ((cfg0.win 3).blk t).view.emb (ix2 p q) := by
    funext a; apply Fin.ext
    match a with
    | ⟨0, _⟩ => show win0_1.index t (0 : Fin 2) * 16 + 1 * p.val = win0_3.index t (0 : Fin 2) * 16 + 1 * p.val; omega
    | ⟨1, _⟩ => show win0_1.index t (1 : Fin 2) * 128 + 1 * q.val = win0_3.index t (1 : Fin 2) * 128 + 1 * q.val; omega
  have k2 : ∀ (a : Fin 512) (b : Fin 512), ((cfg0.win 2).blk t).view.emb (ix2 a b) = ix2 a b := by
    intro a b
    funext d; apply Fin.ext
    match d with
    | ⟨0, _⟩ => show win0_2.index t (0 : Fin 2) * 512 + 1 * a.val = a.val; omega
    | ⟨1, _⟩ => show win0_2.index t (1 : Fin 2) * 512 + 1 * b.val = b.val; omega
  rw [k0, k1]
  simp only [k2]
  rfl

/-- An index of the output array lies in point t's block when each coordinate lies in the block's range. -/
theorem mem_blk3 (t : Fin cfg0.N) (i : S156256x128.Idx) :
    i ∈ ((cfg0.win 3).blk t).view.set ↔ ∀ a : Fin 2, win0_3.index t a * S16x128.size a ≤ (i a).val
      ∧ (i a).val < win0_3.index t a * S16x128.size a + S16x128.size a := by
  show i ∈ ((View.whole main_v6).slice (win0_3.rect t)).set ↔ _
  rw [View.set_slice_whole, Rect.mem_set_unit]
  exact Iff.rfl

/-- The 9766 blocks of 16 rows tile the 156256 rows: row r lies in the block of point r / 16. -/
theorem cover3 (i : S156256x128.Idx) :
    ∃ t : Fin cfg0.N, (cfg0.win 3).flush t = true ∧ i ∈ ((cfg0.win 3).blk t).view.set := by
  have hi0 : (i 0).val < 156256 := (i 0).isLt
  have hi1 : (i 1).val < 128 := (i 1).isLt
  have ht : (i 0).val / 16 < grid0.N := lt_of_lt_of_eq (by omega) N_0.symm
  obtain ⟨-, -, -, -, -, -, e30, e31⟩ := idx_facts ⟨(i 0).val / 16, ht⟩
  refine ⟨⟨(i 0).val / 16, ht⟩, flush0_3 _, ?_⟩
  rw [mem_blk3]
  intro a
  match a with
  | ⟨0, _⟩ =>
    show win0_3.index ⟨(i 0).val / 16, ht⟩ (0 : Fin 2) * 16 ≤ (i 0).val
      ∧ (i 0).val < win0_3.index ⟨(i 0).val / 16, ht⟩ (0 : Fin 2) * 16 + 16
    rw [e30]; show (i 0).val / 16 * 16 ≤ (i 0).val ∧ (i 0).val < (i 0).val / 16 * 16 + 16; omega
  | ⟨1, _⟩ =>
    show win0_3.index ⟨(i 0).val / 16, ht⟩ (1 : Fin 2) * 128 ≤ (i 1).val
      ∧ (i 1).val < win0_3.index ⟨(i 0).val / 16, ht⟩ (1 : Fin 2) * 128 + 128
    rw [e31]; omega

/-- After the region the output array holds G. -/
theorem final3 (c : Dev nD) (A B : S156256x128.Idx → ℝ) (Tb : S512x512.Idx → ℝ)
    (hA : (V m c main_v2 : S156256x128.Idx → EReal) = fun i => ((A i : ℝ) : EReal))
    (hB : (V m c main_v3 : S156256x128.Idx → EReal) = fun i => ((B i : ℝ) : EReal))
    (hT : (V m c main_v5 : S512x512.Idx → EReal) = fun i => ((Tb i : ℝ) : EReal)) :
    (dats m 0 c).arrAt 3 cfg0.N = G A B Tb :=
  (dats m 0 c).arrAt_eq_of_cover 3 (G A B Tb) (fun t _ => flushed3_eq m c A B Tb hA hB hT t) cover3

/-- The program's result: the output array flattened to [20000768] and cut to its first 20000000 entries. -/
theorem tail8 (c : Dev nD) (Gf : S156256x128.Idx → EReal) (hfin : (dats m 0 c).arrAt 3 cfg0.N = Gf) :
    (Pipeline.afterTail₀ cfgs (dats m) 0 (V0 m) [hostOps1] c main_v8 : S20000000.Idx → EReal)
      = extractStridedSlice S20000000 ![0] (shapeCast S20000768 Gf shapeCasts_S156256x128_S20000768)
          slices_S20000768_S20000000_0 := by
  unfold Pipeline.afterTail₀
  show StableHlo.after hostOps1 _ (Proc.devRef .tc main_v8) = _
  after_results
  have hw := (Pipeline.withArrays_arr spec0 launch0.win.arr_inj c (V0 m c) (fun w => (dats m 0 c).arrAt w cfg0.N) 3).trans hfin
  rw [show Pipeline.withArrays (cfgs 0).spec c (V0 m c) (fun w => (dats m 0 c).arrAt w (cfgs 0).N) (Proc.tc.devRef main_v6) = Gf from hw]
  rfl

end Cert.KernelArray

end
-- ==== Proof.HostBefore.lean ====
/-
  The host operations in front of the interpolation kernel, read at an index.

  The two coordinate arrays r and z, of 20000000 entries each, are padded with zeros to 20000768 = 156256 · 128
  entries and laid out row-major as 156256 rows of 128 lanes: row `row`, lane `lane` holds entry
  row · 128 + lane of the array when that position is below 20000000, and zero otherwise. The table of
  262144 = 512 · 512 entries is laid out row-major as a 512 × 512 matrix (and its change of float format is the
  identity on extended reals): row i, column j holds entry i · 512 + j.
-/
import proofs.«131683_j25202868092980_1_alg».proof.Proof.Gen.KernelIdeal.Frame
import proofs.«131683_j25202868092980_1_alg».proof.Proof.Bilinear
import Idealize.ShloMosaic.Lib.KernelVsHost
import Idealize.ShloMosaic.Lib.Pipeline.Value
import Idealize.ShloMosaic.Lib.ValueIdx
import Idealize.ShloMosaic.Lib.StableHlo.Run

set_option maxRecDepth 16384

noncomputable section

namespace Cert.HostBefore

open Idealize.ShloMosaic Idealize.ShloMosaic.TcCoe Idealize.ShloMosaic.ValueIdx
open Idealize.ShloMosaic.StableHlo
open Cert.KernelIdeal

/-! ## A zero-padded vector laid out in rows of 128, and a vector laid out as a square matrix -/

/-- The padding value: the integer zero converted, read at the scalar shape's one index, is the real zero. -/
theorem padValue (k : S_.Idx) :
    (sitofp .f32 (constantI S_ 32 0#32) : FVec Ideal S_ .f32) k = ((0 : ℝ) : EReal) := by
  show ((((0#32 : BitVec 32).toInt : ℤ) : ℝ) : EReal) = ((0 : ℝ) : EReal)
  simp

/-- A vector of 20000000 entries padded with zeros at the end to 20000768 and cast to 156256 rows of 128 lanes,
    read at a row and a lane. -/
theorem padded_rows_apply (x : S20000000.Idx → EReal)
    (hp : S20000000.Pads (![0] : Fin 1 → Nat) ![768] ![0] S20000768) (hu : 0 < S_.numel)
    (hc : S20000768.ShapeCasts S156256x128) (row : Fin 156256) (lane : Fin 128) :
    shapeCast S156256x128
        (pad S20000768 ![0] ![768] ![0] x (sitofp .f32 (constantI S_ 32 0#32) : FVec Ideal S_ .f32) hp hu) hc (ix2 row lane)
      = if h : row.val * 128 + lane.val < 20000000 then x (ix1 ⟨row.val * 128 + lane.val, h⟩) else ((0 : ℝ) : EReal) := by
  have hrow := row.isLt
  have hlane := lane.isLt
  have hlt : row.val * 128 + lane.val < 20000768 := by omega
  rw [shapeCast_apply _ hc (ix2 row lane) (ix1 (⟨row.val * 128 + lane.val, hlt⟩ : Fin 20000768))
    (by rw [Shape.rowMajor_val_one, Shape.rowMajor_val_two]; rfl)]
  by_cases h : row.val * 128 + lane.val < 20000000
  · rw [dif_pos h]
    exact pad_apply_of_inside _ _ _ x _ hp hu _ (ix1 ⟨row.val * 128 + lane.val, h⟩) (fun a => by
      match a with
      | ⟨0, _⟩ => show row.val * 128 + lane.val = 0 + (row.val * 128 + lane.val) * (0 + 1); omega)
  · rw [dif_neg h]
    refine (pad_apply_of_not_inside _ _ _ x _ hp hu _ (0 : Fin 1) (fun hin => h ?_)).trans (padValue _)
    have h3 : (row.val * 128 + lane.val - 0) / (0 + 1) < 20000000 := hin.2.2
    rw [Nat.sub_zero, Nat.zero_add, Nat.div_one] at h3
    exact h3

/-- A vector of 262144 entries cast to a 512 × 512 matrix, read at a row and a column. -/
theorem square_apply (x : S262144.Idx → EReal) (hc : S262144.ShapeCasts S512x512) (i j : Fin 512) :
    shapeCast S512x512 x hc (ix2 i j) = x (ix1 (Cert.Bilinear.flat i j)) :=
  shapeCast_apply x hc (ix2 i j) (ix1 (Cert.Bilinear.flat i j))
    (by rw [Shape.rowMajor_val_one, Shape.rowMajor_val_two]; rfl)

/-! ## The arrays the kernel's windows read, when the region is entered -/

variable (m : (ℓ : Loc nD τ sig) → Buf (Elt Ideal) ℓ) (c : Dev nD)

/-- The first coordinate array as the kernel finds it: padded with zeros, in rows of 128 lanes. -/
theorem V_v2_apply (row : Fin 156256) (lane : Fin 128) :
    Gen.V (F := Ideal) m c main_v2 (ix2 row lane)
      = if h : row.val * 128 + lane.val < 20000000 then
          m ((c.tc : Thread nD τ).loc main_arg0) (ix1 ⟨row.val * 128 + lane.val, h⟩)
        else ((0 : ℝ) : EReal) := by
  have e : Gen.V (F := Ideal) m c main_v2
      = shapeCast S156256x128
          (pad S20000768 ![0] ![768] ![0] (m ((c.tc : Thread nD τ).loc main_arg0))
            (sitofp .f32 (constantI S_ 32 0#32) : FVec Ideal S_ .f32)
            Facts₀.pads_S20000000_S20000768_07680 Facts₀.h_S_)
          Facts₀.shapeCasts_S20000768_S156256x128 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    rfl
  rw [e]
  exact padded_rows_apply _ _ _ _ row lane

/-- The second coordinate array as the kernel finds it: padded with zeros, in rows of 128 lanes. -/
theorem V_v3_apply (row : Fin 156256) (lane : Fin 128) :
    Gen.V (F := Ideal) m c main_v3 (ix2 row lane)
      = if h : row.val * 128 + lane.val < 20000000 then
          m ((c.tc : Thread nD τ).loc main_arg1) (ix1 ⟨row.val * 128 + lane.val, h⟩)
        else ((0 : ℝ) : EReal) := by
  have e : Gen.V (F := Ideal) m c main_v3
      = shapeCast S156256x128
          (pad S20000768 ![0] ![768] ![0] (m ((c.tc : Thread nD τ).loc main_arg1))
            (sitofp .f32 (constantI S_ 32 0#32) : FVec Ideal S_ .f32)
            Facts₀.pads_S20000000_S20000768_07680 Facts₀.h_S_)
          Facts₀.shapeCasts_S20000768_S156256x128 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    rfl
  rw [e]
  exact padded_rows_apply _ _ _ _ row lane

/-- The table as the kernel finds it: the flat table in rows of 512 (its change of format is the identity). -/
theorem V_v5_apply (i j : Fin 512) :
    Gen.V (F := Ideal) m c main_v5 (ix2 i j)
      = m ((c.tc : Thread nD τ).loc main_arg2) (ix1 (Cert.Bilinear.flat i j)) := by
  have e : Gen.V (F := Ideal) m c main_v5
      = (truncf .bf16
          (shapeCast S512x512 (m ((c.tc : Thread nD τ).loc main_arg2)) Facts₀.shapeCasts_S262144_S512x512 : FVec Ideal S512x512 .f32)
          Facts₀.bitsLt_bf16_f32 : FVec Ideal S512x512 .bf16) := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    rfl
  rw [e]
  exact square_apply _ _ i j

end Cert.HostBefore

end
-- ==== Proof.KernelValue.lean ====
/-
  The kernel program's result as a function of real inputs.

  The program pads the two query arrays with zeros to 20000768 = 156256 · 128 entries, lays them out in rows of 128,
  lays the flat table out as a 512 × 512 matrix, runs the region, flattens the region's output and keeps the first
  20000000 entries.  Entry e of the result is row e / 128, lane e % 128 of the region's output, whose query is entry
  e / 128 · 128 + e % 128 = e of the inputs (never a padded one), so the result at e is the interpolation of the table
  at (R e, Z e).
-/
import proofs.«131683_j25202868092980_1_alg».proof.Proof.KernelArray
import proofs.«131683_j25202868092980_1_alg».proof.Proof.HostBefore

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Cert.Bilinear

variable (m : (ℓ : Loc nD τ sig) → Buf (Elt Ideal) ℓ) (c : Dev nD)

/-- A real array of 20000000 entries padded with zeros to 156256 rows of 128 lanes. -/
def padRows (X : S20000000.Idx → ℝ) : S156256x128.Idx → ℝ :=
  fun j => if h : (j 0).val * 128 + (j 1).val < 20000000 then X (ix1 ⟨(j 0).val * 128 + (j 1).val, h⟩) else 0

/-- The flat real table as a 512 × 512 matrix. -/
def square (Tt : S262144.Idx → ℝ) : S512x512.Idx → ℝ := fun y => Tt (ix1 (flat (y 0) (y 1)))

/-- Entry e of the array sits at row e / 128, lane e % 128 of its padded layout. -/
theorem padRows_at (X : S20000000.Idx → ℝ) (e : Fin 20000000) (h0 : e.val / 128 < 156256) (h1 : e.val % 128 < 128) :
    padRows X (ix2 (⟨e.val / 128, h0⟩ : Fin 156256) (⟨e.val % 128, h1⟩ : Fin 128)) = X (ix1 e) := by
  have he := e.isLt
  have hs : e.val / 128 * 128 + e.val % 128 = e.val := by omega
  unfold padRows
  show (if h : e.val / 128 * 128 + e.val % 128 < 20000000 then X (ix1 ⟨e.val / 128 * 128 + e.val % 128, h⟩) else 0) = _
  rw [dif_pos (by omega)]
  congr 2
  exact Fin.ext hs

/-- With real entries in the first coordinate array, the kernel finds real entries in its padded layout. -/
theorem V_v2_real (R : S20000000.Idx → ℝ)
    (hR : m ((c.tc : Thread nD τ).loc main_arg0) = fun i => ((R i : ℝ) : EReal)) :
    (V m c main_v2 : S156256x128.Idx → EReal) = fun j => ((padRows R j : ℝ) : EReal) := by
  funext j
  obtain ⟨row, lane, rfl⟩ : ∃ (row : Fin 156256) (lane : Fin 128), j = ix2 row lane := ⟨j 0, j 1, eq_ix2 j⟩
  rw [Cert.HostBefore.V_v2_apply, hR]
  unfold padRows
  show (if h : row.val * 128 + lane.val < 20000000 then ((R (ix1 ⟨row.val * 128 + lane.val, h⟩) : ℝ) : EReal) else ((0 : ℝ) : EReal))
    = (((if h : row.val * 128 + lane.val < 20000000 then R (ix1 ⟨row.val * 128 + lane.val, h⟩) else 0) : ℝ) : EReal)
  split_ifs <;> rfl

/-- The same for the second coordinate array. -/
theorem V_v3_real (Z : S20000000.Idx → ℝ)
    (hZ : m ((c.tc : Thread nD τ).loc main_arg1) = fun i => ((Z i : ℝ) : EReal)) :
    (V m c main_v3 : S156256x128.Idx → EReal) = fun j => ((padRows Z j : ℝ) : EReal) := by
  funext j
  obtain ⟨row, lane, rfl⟩ : ∃ (row : Fin 156256) (lane : Fin 128), j = ix2 row lane := ⟨j 0, j 1, eq_ix2 j⟩
  rw [Cert.HostBefore.V_v3_apply, hZ]
  unfold padRows
  show (if h : row.val * 128 + lane.val < 20000000 then ((Z (ix1 ⟨row.val * 128 + lane.val, h⟩) : ℝ) : EReal) else ((0 : ℝ) : EReal))
    = (((if h : row.val * 128 + lane.val < 20000000 then Z (ix1 ⟨row.val * 128 + lane.val, h⟩) else 0) : ℝ) : EReal)
  split_ifs <;> rfl

/-- With real entries in the flat table, the kernel finds the real 512 × 512 matrix. -/
theorem V_v5_real (Tt : S262144.Idx → ℝ)
    (hT : m ((c.tc : Thread nD τ).loc main_arg2) = fun i => ((Tt i : ℝ) : EReal)) :
    (V m c main_v5 : S512x512.Idx → EReal) = fun y => ((square Tt y : ℝ) : EReal) := by
  funext y
  obtain ⟨i, j, rfl⟩ : ∃ (i : Fin 512) (j : Fin 512), y = ix2 i j := ⟨y 0, y 1, eq_ix2 y⟩
  rw [Cert.HostBefore.V_v5_apply, hT]
  rfl

/-- THE KERNEL PROGRAM'S RESULT for real inputs: entry e is the interpolation of the table at (R e, Z e).  The output
    array of the region holds the interpolated values of the padded queries in rows of 128; flattened and cut back to
    the first 20000000 entries, entry e is row e / 128, lane e % 128, which is query e itself. -/
theorem result_value (R Z : S20000000.Idx → ℝ) (Tt : S262144.Idx → ℝ)
    (hR : m ((c.tc : Thread nD τ).loc main_arg0) = fun i => ((R i : ℝ) : EReal))
    (hZ : m ((c.tc : Thread nD τ).loc main_arg1) = fun i => ((Z i : ℝ) : EReal))
    (hT : m ((c.tc : Thread nD τ).loc main_arg2) = fun i => ((Tt i : ℝ) : EReal)) :
    (Pipeline.afterTail₀ cfgs (dats m) 0 (V0 m) [hostOps1] c main_v8 : S20000000.Idx → EReal)
      = fun i => ((bil (R i) (Z i) (fun a b => Tt (ix1 (flat a b))) : ℝ) : EReal) := by
  rw [Cert.KernelArray.tail8 m c _ (Cert.KernelArray.final3 m c (padRows R) (padRows Z) (square Tt)
    (V_v2_real m c R hR) (V_v3_real m c Z hZ) (V_v5_real m c Tt hT))]
  funext i
  obtain ⟨e, rfl⟩ : ∃ e : Fin 20000000, i = ix1 e := ⟨i 0, eq_ix1 i⟩
  have he := e.isLt
  have h0 : e.val / 128 < 156256 := by omega
  have h1 : e.val % 128 < 128 := by omega
  have h2 : e.val < 20000768 := by omega
  rw [extractStridedSlice_apply _ _ _ (ix1 e) (ix1 (⟨e.val, h2⟩ : Fin 20000768)) (fun a => by
    match a with
    | ⟨0, _⟩ => show e.val = 0 + e.val; omega)]
  rw [shapeCast_apply _ _ (ix1 (⟨e.val, h2⟩ : Fin 20000768))
    (ix2 (⟨e.val / 128, h0⟩ : Fin 156256) (⟨e.val % 128, h1⟩ : Fin 128))
    (by rw [Shape.rowMajor_val_one, Shape.rowMajor_val_two]; show e.val / 128 * 128 + e.val % 128 = e.val; omega)]
  unfold Cert.KernelArray.G
  rw [padRows_at R e h0 h1, padRows_at Z e h0 h1]
  rfl

end Cert.KernelValue

end
-- ==== Proof.lean ====
/-
  Bilinear interpolation of a 512 × 512 table at 20000000 query points: a blocked kernel against its array-level
  reference, equal over the extended reals for finite inputs.

  Both programs compute, for each query (r, z), the cell n = clamp(⌊r⌋, 0, 510), k = clamp(⌊z⌋, 0, 510) and the value

      (k + 1 - z) · ((n + 1 - r) · T n k + (r - n) · T (n+1) k) + (z - k) · ((n + 1 - r) · T n (k+1) + (r - n) · T (n+1) (k+1)).

  The kernel has no gather: per query it builds a row selector with the weights n + 1 - r and r - n at positions n and
  n + 1 of 512 lanes, contracts it with the table on the matrix unit, and contracts the resulting row with a column
  selector built from z the same way; a sum against a two-hot selector keeps the two selected terms.  The reference
  gathers the four corners from the flat table and divides by the cell's area (x2 - x1) · (y2 - y1), which is 1.  On
  finite inputs every intermediate value is a real number, where the two spellings agree by distributivity; the
  precondition is used exactly there (a selector's zeros times an infinite table entry would not vanish).  The kernel
  pads the queries with zeros to whole blocks of 16 × 128 and cuts the padding off the result; no padded query is read
  by an entry that is kept.

  The three programs' runs and the preservation of their arguments are the generated frames and the reference's
  generated run; the idealization rewrote no operation.
-/
import proofs.«131683_j25202868092980_1_alg».proof.Defs
import proofs.«131683_j25202868092980_1_alg».proof.Proof.Gen.Kernel
import proofs.«131683_j25202868092980_1_alg».proof.Proof.Gen.Kernel.Skeleton
import proofs.«131683_j25202868092980_1_alg».proof.Proof.Gen.Kernel.Launch
import proofs.«131683_j25202868092980_1_alg».proof.Proof.Gen.Kernel.Points
import proofs.«131683_j25202868092980_1_alg».proof.Proof.Gen.Kernel.Frame
import proofs.«131683_j25202868092980_1_alg».proof.Proof.Gen.KernelIdeal
import proofs.«131683_j25202868092980_1_alg».proof.Proof.Gen.KernelIdeal.Skeleton
import proofs.«131683_j25202868092980_1_alg».proof.Proof.Gen.KernelIdeal.Launch
import proofs.«131683_j25202868092980_1_alg».proof.Proof.Gen.KernelIdeal.Points
import proofs.«131683_j25202868092980_1_alg».proof.Proof.Gen.KernelIdeal.Frame
import proofs.«131683_j25202868092980_1_alg».proof.Proof.Gen.ReferenceIdeal
import proofs.«131683_j25202868092980_1_alg».proof.Proof.Gen.Pre_finite_inputs
import proofs.«131683_j25202868092980_1_alg».proof.Proof.Gen.ReferenceIdeal.Run
import proofs.«131683_j25202868092980_1_alg».proof.Proof.Gen.ReferenceIdeal.Read
import proofs.«131683_j25202868092980_1_alg».proof.Proof.Finite
import proofs.«131683_j25202868092980_1_alg».proof.Proof.RefPoint
import proofs.«131683_j25202868092980_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hPre : Cert.Pre_finite_inputs.Facts] [hK : Cert.Kernel.Facts] [hKI : Cert.KernelIdeal.Facts]
  [hRI : Cert.ReferenceIdeal.Facts]

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- For finite inputs both programs end with, at entry e, the interpolation of the table at (r e, z e): the kernel
    program by its region's output array read through the flattening and the cut, the reference by its run read
    stage by stage. -/
theorem algebraic : Cert.algebraic_KernelIdeal_ReferenceIdeal := by
  intro m ρ m' ρ' hpre hagree
  have hfin := fun c : Dev Cert.KernelIdeal.nD => Cert.Finite.reals_of_pre _ _ _ (hpre c)
  choose R Z Tt hR hZ hT using hfin
  refine ⟨fun c => fun i => ((Cert.Bilinear.bil (R c i) (Z c i) (fun a b => Tt c (ix1 (Cert.Bilinear.flat a b))) : ℝ) : EReal),
    ?_, ?_⟩
  · exact (θ_run Cert.KernelIdeal.defs _ _).mono (fun r h c =>
      ⟨((h c).2 Cert.KernelIdeal.main_v8 (Pipeline.mem_restRefs_of Cert.KernelIdeal.main_v8 (by decide) (by decide))).trans
          (Cert.KernelValue.result_value m c (R c) (Z c) (Tt c) (hR c) (hZ c) (hT c)),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c)⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v102_eq, (hagree c).1, (hagree c).2.1, (hagree c).2.2, hR c, hZ c, hT c]
    funext i
    obtain ⟨e, rfl⟩ : ∃ e : Fin 20000000, i = ix1 e := ⟨i 0, eq_ix1 i⟩
    exact Cert.RefPoint.ref_apply (R c) (Z c) (Tt c) e

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
